-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S1024x1024 .f32 .bf16
  ∧ IdealRules.truncf_extf.Statement Cert.KernelIdeal.S1024x1024 .f32 .bf16
  ∧ IdealRules.truncf_extf.Statement Cert.KernelIdeal.S1024x1024 .f32 .bf16
  ∧ IdealRules.truncf_extf.Statement Cert.KernelIdeal.S1024x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x1024 : Shape := ⟨3, ![16, 1024, 1024]⟩
abbrev S1024x1024 : Shape := ⟨2, ![1024, 1024]⟩
abbrev S_ : Shape := ⟨0, ![]⟩

class Facts : Prop where
  bcast_S_S16x1024x1024 : S_.BroadcastsInDim S16x1024x1024 (![] : Fin 0 → Fin S16x1024x1024.rank)
  reducesTo_S16x1024x1024_S_d0_1_2 : S16x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S16x1024x1024 .f32) (main_arg1 : FVec F S16x1024x1024 .f32) (main_arg2 : FVec F S1024x1024 .f32) : IVec S_ 1 :=
  let main_v0 : FVec F S16x1024x1024 .f32 := Host.absf main_arg0
  let main_cst : FVec F S_ .f32 := constant S_ .f32 0x7F800000#32
  let main_v1 : FVec F S16x1024x1024 .f32 := broadcastInDim S16x1024x1024 ![] bcast_S_S16x1024x1024 main_cst
  let main_v2 : IVec S16x1024x1024 1 := cmpf .olt main_v0 main_v1
  let main_c : IVec S_ 1 := constantI S_ 1 1#1
  let main_v3 : IVec S_ 1 := (fun x v => Host.reduce IntOp.andi x v reducesTo_S16x1024x1024_S_d0_1_2 h_S_) main_v2 main_c
  let main_v4 : FVec F S16x1024x1024 .f32 := Host.absf main_arg1
  let main_cst_0 : FVec F S_ .f32 := constant S_ .f32 0x7F800000#32
  let main_v5 : FVec F S16x1024x1024 .f32 := broadcastInDim S16x1024x1024 ![] bcast_S_S16x1024x1024 main_cst_0
  let main_v6 : IVec S16x1024x1024 1 := cmpf .olt main_v4 main_v5
  let main_c_1 : IVec S_ 1 := constantI S_ 1 1#1
  let main_v7 : IVec S_ 1 := (fun x v => Host.reduce IntOp.andi x v reducesTo_S16x1024x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S16x1024x1024 : Shape := ⟨3, ![16, 1024, 1024]⟩
abbrev S1024x1024 : Shape := ⟨2, ![1024, 1024]⟩
abbrev S1x1024x1024 : Shape := ⟨3, ![1, 1024, 1024]⟩
abbrev S1024 : Shape := ⟨1, ![1024]⟩
abbrev S1x1024 : Shape := ⟨2, ![1, 1024]⟩
abbrev S1024x1 : Shape := ⟨2, ![1024, 1]⟩

abbrev nBuf : Space → Nat
  | .hbm => 5
  | .vmem => 9
  | .smem => 0
  | _ => 0

abbrev bufTy : (tb : Table) → Fin (tcTables nBuf tb) → BufTy
  | .hbm, ⟨0, _⟩ => ⟨S16x1024x1024, .f32⟩
  | .hbm, ⟨1, _⟩ => ⟨S16x1024x1024, .f32⟩
  | .hbm, ⟨2, _⟩ => ⟨S1024x1024, .f32⟩
  | .hbm, ⟨3, _⟩ => ⟨S16x1024x1024, .f32⟩
  | .hbm, ⟨4, _⟩ => ⟨S16x1024x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1024x1024, .f32⟩
  | .local _ .vmem, ⟨5, _⟩ => ⟨S1x1024x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1024x1024, .f32⟩
  | _, _ => ⟨S16x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  reduces_S1024x1024_S1024 : S1024x1024.Reduces [0] S1024
  shapeCasts_S1024_S1x1024 : S1024.ShapeCasts S1x1024
  broadcasts_S1x1024_S1024x1024 : S1x1024.Broadcasts S1024x1024
  reduces_S1024x1024_S1024_2 : S1024x1024.Reduces [1] S1024
  shapeCasts_S1024_S1024x1 : S1024.ShapeCasts S1024x1
  broadcasts_S1024x1_S1024x1024 : S1024x1.Broadcasts S1024x1024
  shapeCasts_S1024x1024_S1x1024x1024 : S1024x1024.ShapeCasts S1x1024x1024
  dot_S1024x1024_S1024x1024_S1024x1024_1_0_0_1_n_n_wf : DotDims.WF S1024x1024 S1024x1024 S1024x1024 [1] [0] [0] [1] [] []
  dot_S1024x1024_S1024x1024_S1024x1024_1_1_0_0_n_n_wf : DotDims.WF S1024x1024 S1024x1024 S1024x1024 [1] [1] [0] [0] [] []
  dot_S1024x1024_S1024x1024_S1024x1024_0_1_1_0_n_n_wf : DotDims.WF S1024x1024 S1024x1024 S1024x1024 [0] [1] [1] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S16x1024x1024.size a
  hwx0_0 : ∀ i : grid0.Coords, EltTy.bits .f32 = 32 ∨ (Rect.block (s := S16x1024x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S16x1024x1024.size a
  hwx0_1 : ∀ i : grid0.Coords, EltTy.bits .f32 = 32 ∨ (Rect.block (s := S16x1024x1024) S1x1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .f32 = 32 ∨ (Rect.block (s := S1024x1024) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S16x1024x1024.size a
  hwx0_3 : ∀ i : grid0.Coords, EltTy.bits .f32 = 32 ∨ (Rect.block (s := S16x1024x1024) S1x1024x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x1024.size a ≤ S16x1024x1024.size a
  hwx0_4 : ∀ i : grid0.Coords, EltTy.bits .f32 = 32 ∨ (Rect.block (s := S16x1024x1024) S1x1024x1024.size (cc0_transform_4 i) (hinb0_4 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S1024x1024_S1024x1024_S1024x1024_0_1_1_0_n_n : DotDims S1024x1024 S1024x1024 S1024x1024 where
  lhsContracting := [0]
  rhsContracting := [1]
  lhsNonContracting := [1]
  rhsNonContracting := [0]
  lhsBatch := []
  rhsBatch := []
  wf := dot_S1024x1024_S1024x1024_S1024x1024_0_1_1_0_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x1024x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x1024x1024 : Shape := ⟨3, ![16, 1024, 1024]⟩
abbrev S1024x1024 : Shape := ⟨2, ![1024, 1024]⟩
abbrev S_ : Shape := ⟨0, ![]⟩
abbrev S16x1024 : Shape := ⟨2, ![16, 1024]⟩
abbrev S16x1x1024 : Shape := ⟨3, ![16, 1, 1024]⟩

abbrev nBuf : Space → Nat
  | .hbm => 38
  | .vmem => 0
  | .smem => 0
  | _ => 0

abbrev bufTy : (tb : Table) → Fin (tcTables nBuf tb) → BufTy
  | .hbm, ⟨0, _⟩ => ⟨S16x1024x1024, .f32⟩
  | .hbm, ⟨1, _⟩ => ⟨S16x1024x1024, .f32⟩
  | .hbm, ⟨2, _⟩ => ⟨S1024x1024, .f32⟩
  | .hbm, ⟨3, _⟩ => ⟨S16x1024x1024, .f32⟩
  | .hbm, ⟨4, _⟩ => ⟨S16x1024x1024, .f32⟩
  | .hbm, ⟨5, _⟩ => ⟨S_, .f32⟩
  | .hbm, ⟨6, _⟩ => ⟨S16x1024, .f32⟩
  | .hbm, ⟨7, _⟩ => ⟨S_, .f32⟩
  | .hbm, ⟨8, _⟩ => ⟨S16x1024, .f32⟩
  | .hbm, ⟨9, _⟩ => ⟨S16x1024, .f32⟩
  | .hbm, ⟨10, _⟩ => ⟨S16x1x1024, .f32⟩
  | .hbm, ⟨11, _⟩ => ⟨S16x1024x1024, .f32⟩
  | .hbm, ⟨12, _⟩ => ⟨S16x1024x1024, .f32⟩
  | .hbm, ⟨13, _⟩ => ⟨S16x1024x1024, .f32⟩
  | .hbm, ⟨14, _⟩ => ⟨S_, .f32⟩
  | .hbm, ⟨15, _⟩ => ⟨S16x1024, .f32⟩
  | .hbm, ⟨16, _⟩ => ⟨S16x1x1024, .f32⟩
  | .hbm, ⟨17, _⟩ => ⟨S16x1024x1024, .f32⟩
  | .hbm, ⟨18, _⟩ => ⟨S16x1024x1024, .f32⟩
  | .hbm, ⟨19, _⟩ => ⟨S16x1024x1024, .f32⟩
  | .hbm, ⟨20, _⟩ => ⟨S_, .f32⟩
  | .hbm, ⟨21, _⟩ => ⟨S16x1024, .f32⟩
  | .hbm, ⟨22, _⟩ => ⟨S_, .f32⟩
  | .hbm, ⟨23, _⟩ => ⟨S16x1024, .f32⟩
  | .hbm, ⟨24, _⟩ => ⟨S16x1024, .f32⟩
  | .hbm, ⟨25, _⟩ => ⟨S16x1x1024, .f32⟩
  | .hbm, ⟨26, _⟩ => ⟨S16x1024x1024, .f32⟩
  | .hbm, ⟨27, _⟩ => ⟨S16x1024x1024, .f32⟩
  | .hbm, ⟨28, _⟩ => ⟨S16x1024x1024, .f32⟩
  | .hbm, ⟨29, _⟩ => ⟨S_, .f32⟩
  | .hbm, ⟨30, _⟩ => ⟨S16x1024, .f32⟩
  | .hbm, ⟨31, _⟩ => ⟨S16x1x1024, .f32⟩
  | .hbm, ⟨32, _⟩ => ⟨S16x1024x1024, .f32⟩
  | .hbm, ⟨33, _⟩ => ⟨S16x1024x1024, .f32⟩
  | .hbm, ⟨34, _⟩ => ⟨S16x1024x1024, .f32⟩
  | .hbm, ⟨35, _⟩ => ⟨S16x1024x1024, .f32⟩
  | .hbm, ⟨36, _⟩ => ⟨S16x1024x1024, .f32⟩
  | .hbm, ⟨37, _⟩ => ⟨S16x1024x1024, .f32⟩
  | _, _ => ⟨S16x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]

class Facts₀ : Prop where
  reducesTo_S16x1024x1024_S16x1024_d1 : S16x1024x1024.ReducesTo [1] S16x1024
  h_S_ : 0 < S_.numel
  bcast_S_S16x1024 : S_.BroadcastsInDim S16x1024 (![] : Fin 0 → Fin S16x1024.rank)
  bcast_S16x1024_S16x1x1024_0_2 : S16x1024.BroadcastsInDim S16x1x1024 (![0, 2] : Fin 2 → Fin S16x1x1024.rank)
  bcast_S16x1x1024_S16x1024x1024_0_1_2 : S16x1x1024.BroadcastsInDim S16x1024x1024 (![0, 1, 2] : Fin 3 → Fin S16x1024x1024.rank)
  transposes_S16x1024x1024_S16x1024x1024_0_2_1 : S16x1024x1024.Transposes [0, 2, 1] S16x1024x1024
  dot_S16x1024x1024_S1024x1024_S16x1024x1024_2_0_01_1_n_n_wf : DotDims.WF S16x1024x1024 S1024x1024 S16x1024x1024 [2] [0] [0, 1] [1] [] []
  dot_S16x1024x1024_S16x1024x1024_S16x1024x1024_2_2_1_1_0_0_wf : DotDims.WF S16x1024x1024 S16x1024x1024 S16x1024x1024 [2] [2] [1] [1] [0] [0]
  dot_S16x1024x1024_S16x1024x1024_S16x1024x1024_2_1_1_2_0_0_wf : DotDims.WF S16x1024x1024 S16x1024x1024 S16x1024x1024 [2] [1] [1] [2] [0] [0]

variable [Facts₀]

def dot_S16x1024x1024_S1024x1024_S16x1024x1024_2_0_01_1_n_n : DotDims S16x1024x1024 S1024x1024 S16x1024x1024 where
  lhsContracting := [2]
  rhsContracting := [0]
  lhsNonContracting := [0, 1]
  rhsNonContracting := [1]
  lhsBatch := []
  rhsBatch := []
  wf := dot_S16x1024x1024_S1024x1024_S16x1024x1024_2_0_01_1_n_n_wf
def dot_S16x1024x1024_S16x1024x1024_S16x1024x1024_2_2_1_1_0_0 : DotDims S16x1024x1024 S16x1024x1024 S16x1024x1024 where
  lhsContracting := [2]
  rhsContracting := [2]
  lhsNonContracting := [1]
  rhsNonContracting := [1]
  lhsBatch := [0]
  rhsBatch := [0]
  wf := dot_S16x1024x1024_S16x1024x1024_S16x1024x1024_2_2_1_1_0_0_wf
def dot_S16x1024x1024_S16x1024x1024_S16x1024x1024_2_1_1_2_0_0 : DotDims S16x1024x1024 S16x1024x1024 S16x1024x1024 where
  lhsContracting := [2]
  rhsContracting := [1]
  lhsNonContracting := [1]
  rhsNonContracting := [2]
  lhsBatch := [0]
  rhsBatch := [0]
  wf := dot_S16x1024x1024_S16x1024x1024_S16x1024x1024_2_1_1_2_0_0_wf

class Facts : Prop extends Facts₀ where

variable [Facts]
-- ==== Proof.LibPlainDot.lean ====
/-
  A plain matrix product read at an index, on the extended reals.

  For dimension numbers that contract the left operand's second axis against the right operand's
  first, with no batch axes (an `M×K` matrix times a `K×N` matrix), entry `(p, c)` of the product is
  `Σ_{q < K} l[p, q] · r[q, c]`. The library states a product as a sum over the contraction shape's
  multi-indices; here that sum is re-indexed by the one contracted coordinate, once, for every record
  of this form and every extent.
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat} (d : DotDims ⟨2, ![M, K]⟩ ⟨2, ![K, N]⟩ ⟨2, ![M, N]⟩)

/-- The dimension numbers of a plain product: contract left axis 1 with right axis 0, keep left axis 0 and
    right axis 1 in that order, no batch axes. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

/-- The contraction shape has one axis. -/
theorem contr_rank (h : IsPlain d) : d.contr.rank = 1 := by rw [d.rank_contr, h.lc]; rfl

/-- That axis has the shared extent `K`. -/
theorem contr_size (h : IsPlain d) : d.contr.size ⟨0, by rw [contr_rank h]; exact Nat.one_pos⟩ = K := by
  rw [d.size_contr 0 (by rw [h.lc]; exact Nat.one_pos), List.getElem_of_eq h.lc]
  rfl

/-- A coordinate of an index depends only on the axis number. -/
private theorem coord_congr {s : Shape} (j : s.Idx) (p q : Nat) (hp : p < s.rank) (hq : q < s.rank) (e : p = q) :
    (j ⟨p, hp⟩).val = (j ⟨q, hq⟩).val := by subst e; rfl

/-- The left operand is read at the result's row. -/
theorem lhs_row (h : IsPlain d) (j : (⟨2, ![M, N]⟩ : Shape).Idx) (k : d.contr.Idx) : (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by rw [h.lb, h.ln]; rfl)

/-- The right operand is read at the result's column. -/
theorem rhs_col (h : IsPlain d) (j : (⟨2, ![M, N]⟩ : Shape).Idx) (k : d.contr.Idx) : (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by rw [h.lb, h.ln, h.rn]; rfl)

/-- The library's sum over contraction multi-indices is the sum over the contracted coordinate. -/
theorem sum_contr (h : IsPlain d) (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ q : Fin K, l (ix2 (j 0) q) * r (ix2 q (j 1)) := by
  have hr : d.contr.rank = 1 := contr_rank h
  have hs : d.contr.size ⟨0, by omega⟩ = K := contr_size h
  rw [← Equiv.sum_comp (contrEquiv1 d K hr hs).symm]
  refine Finset.sum_congr rfl fun q _ => ?_
  have hq := contrEquiv1_symm_val d K hr hs q
  have el : d.lhsIdx j ((contrEquiv1 d K hr hs).symm q) = ix2 (j 0) q := funext fun a => Fin.ext (by
    match a with
    | ⟨0, _⟩ => exact lhs_row h j _
    | ⟨1, _⟩ => exact (d.lhsIdx_val_of_single h.lc j _).trans hq)
  have er : d.rhsIdx j ((contrEquiv1 d K hr hs).symm q) = ix2 q (j 1) := funext fun a => Fin.ext (by
    match a with
    | ⟨0, _⟩ => exact (d.rhsIdx_val_of_single h.rc j _).trans hq
    | ⟨1, _⟩ => exact rhs_col h j _)
  rw [el, er]
  rfl

/-- A `tpu.matmul` into a zero accumulator, at entry `(p, c)`. -/
theorem matmul_zero_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    matmul d prec l r (constant ⟨2, ![M, N]⟩ .f32 0x00000000#32) (ix2 p c) = ∑ q : Fin K, l (ix2 p q) * r (ix2 q c) :=
  (Ideal.matmul_constant_zero_apply d prec l r (ix2 p c)).trans (sum_contr h l r (ix2 p c))

/-- The host's `dot_general`, at entry `(p, c)`. -/
theorem dotGeneral_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    Host.dotGeneral d prec l r (ix2 p c) = ∑ q : Fin K, l (ix2 p q) * r (ix2 q c) :=
  (Ideal.dotGeneral_apply d prec .single l r (ix2 p c)).trans (sum_contr h l r (ix2 p c))

end Cert.PlainDot

end
-- ==== Proof.LibDotNT.lean ====
/-
  A matrix product against a transposed right operand, read at an index, on the extended reals.

  For dimension numbers that contract the left operand's second axis against the right operand's
  SECOND axis, with no batch axes (an `M×K` matrix times the transpose of an `N×K` matrix), entry
  `(p, c)` of the product is `Σ_{q < K} l[p, q] · r[c, q]`. The library states a product as a sum over
  the contraction shape's multi-indices; here that sum is re-indexed by the one contracted coordinate,
  once, for every record of this form and every extent.
-/
import Idealize.ShloMosaic.PureOps.Ideal.Laws
import Idealize.ShloMosaic.Lib.ValueIdx

noncomputable section

open scoped BigOperators

namespace Cert.DotNT

open Idealize.ShloMosaic Idealize.ShloMosaic.ValueIdx

variable {M K N : Nat} (d : DotDims ⟨2, ![M, K]⟩ ⟨2, ![N, K]⟩ ⟨2, ![M, N]⟩)

/-- The dimension numbers of a product with a transposed right operand: contract left axis 1 with right
    axis 1, keep left axis 0 and right axis 0 in that order, no batch axes. -/
structure IsNT : Prop where
  lc : d.lhsContracting = [1]
  rc : d.rhsContracting = [1]
  ln : d.lhsNonContracting = [0]
  rn : d.rhsNonContracting = [0]
  lb : d.lhsBatch = []
  rb : d.rhsBatch = []

variable {d}

/-- The contraction shape has one axis. -/
theorem contr_rank (h : IsNT d) : d.contr.rank = 1 := by rw [d.rank_contr, h.lc]; rfl

/-- That axis has the shared extent `K`. -/
theorem contr_size (h : IsNT d) : d.contr.size ⟨0, by rw [contr_rank h]; exact Nat.one_pos⟩ = K := by
  rw [d.size_contr 0 (by rw [h.lc]; exact Nat.one_pos), List.getElem_of_eq h.lc]
  rfl

/-- A coordinate of an index depends only on the axis number. -/
private theorem coord_congr {s : Shape} (j : s.Idx) (p q : Nat) (hp : p < s.rank) (hq : q < s.rank) (e : p = q) :
    (j ⟨p, hp⟩).val = (j ⟨q, hq⟩).val := by subst e; rfl

/-- The left operand is read at the result's row. -/
theorem lhs_row (h : IsNT d) (j : (⟨2, ![M, N]⟩ : Shape).Idx) (k : d.contr.Idx) : (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by rw [h.lb, h.ln]; rfl)

/-- The right operand's ROW is the result's column. -/
theorem rhs_row (h : IsNT d) (j : (⟨2, ![M, N]⟩ : Shape).Idx) (k : d.contr.Idx) : (d.rhsIdx j k 0).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by rw [h.lb, h.ln, h.rn]; rfl)

/-- The library's sum over contraction multi-indices is the sum over the contracted coordinate. -/
theorem sum_contr (h : IsNT d) (l : (⟨2, ![M, K]⟩ : Shape).Idx → EReal) (r : (⟨2, ![N, K]⟩ : Shape).Idx → EReal)
    (j : (⟨2, ![M, N]⟩ : Shape).Idx) :
    ∑ k : d.contr.Idx, l (d.lhsIdx j k) * r (d.rhsIdx j k) = ∑ q : Fin K, l (ix2 (j 0) q) * r (ix2 (j 1) q) := by
  have hr : d.contr.rank = 1 := contr_rank h
  have hs : d.contr.size ⟨0, by omega⟩ = K := contr_size h
  rw [← Equiv.sum_comp (contrEquiv1 d K hr hs).symm]
  refine Finset.sum_congr rfl fun q _ => ?_
  have hq := contrEquiv1_symm_val d K hr hs q
  have el : d.lhsIdx j ((contrEquiv1 d K hr hs).symm q) = ix2 (j 0) q := funext fun a => Fin.ext (by
    match a with
    | ⟨0, _⟩ => exact lhs_row h j _
    | ⟨1, _⟩ => exact (d.lhsIdx_val_of_single h.lc j _).trans hq)
  have er : d.rhsIdx j ((contrEquiv1 d K hr hs).symm q) = ix2 (j 1) q := funext fun a => Fin.ext (by
    match a with
    | ⟨0, _⟩ => exact rhs_row h j _
    | ⟨1, _⟩ => exact (d.rhsIdx_val_of_single h.rc j _).trans hq)
  rw [el, er]
  rfl

/-- A `tpu.matmul` into a zero accumulator, at entry `(p, c)`. -/
theorem matmul_zero_apply (h : IsNT d) (prec : Option ContractPrecision) {φ₁ φ₂ : FTy}
    (l : FVec Ideal ⟨2, ![M, K]⟩ φ₁) (r : FVec Ideal ⟨2, ![N, K]⟩ φ₂) (p : Fin M) (c : Fin N) :
    matmul d prec l r (constant ⟨2, ![M, N]⟩ .f32 0x00000000#32) (ix2 p c) = ∑ q : Fin K, l (ix2 p q) * r (ix2 c q) :=
  (Ideal.matmul_constant_zero_apply d prec l r (ix2 p c)).trans (sum_contr h l r (ix2 p c))

/-- The host's `dot_general` of the same form, at entry `(p, c)`. -/
theorem dotGeneral_apply (h : IsNT d) (prec : Option ContractPrecision) {φ₁ φ₂ : FTy}
    (l : FVec Ideal ⟨2, ![M, K]⟩ φ₁) (r : FVec Ideal ⟨2, ![N, K]⟩ φ₂) (p : Fin M) (c : Fin N) :
    Host.dotGeneral d prec l r (ix2 p c) = ∑ q : Fin K, l (ix2 p q) * r (ix2 c q) :=
  (Ideal.dotGeneral_apply d prec .single l r (ix2 p c)).trans (sum_contr h l r (ix2 p c))

end Cert.DotNT

end
-- ==== Proof.LibDotTN.lean ====
/-
  A matrix product whose LEFT operand is read transposed, read at an index, on the extended reals.

  For dimension numbers that contract the left operand's FIRST axis against the right operand's SECOND
  axis, with no batch axes (the transpose of a `K×M` matrix times the transpose of an `N×K` matrix),
  entry `(p, c)` of the product is `Σ_{q < K} l[q, p] · r[c, q]`: the result's row index runs over the
  left operand's columns, its column index over the right operand's rows, and no transpose is ever
  formed. The library states a product as a sum over the contraction shape's multi-indices; here that
  sum is re-indexed by the one contracted coordinate, once, for every record of this form and every
  extent.
-/
import Idealize.ShloMosaic.PureOps.Ideal.Laws
import Idealize.ShloMosaic.Lib.ValueIdx

noncomputable section

open scoped BigOperators

namespace Cert.DotTN

open Idealize.ShloMosaic Idealize.ShloMosaic.ValueIdx

variable {M K N : Nat} (d : DotDims ⟨2, ![K, M]⟩ ⟨2, ![N, K]⟩ ⟨2, ![M, N]⟩)

/-- The dimension numbers of `lᵀ · rᵀ`: contract left axis 0 with right axis 1, keep left axis 1 then
    right axis 0, no batch axes. -/
structure IsTN : Prop where
  lc : d.lhsContracting = [0]
  rc : d.rhsContracting = [1]
  ln : d.lhsNonContracting = [1]
  rn : d.rhsNonContracting = [0]
  lb : d.lhsBatch = []
  rb : d.rhsBatch = []

variable {d}

/-- The contraction shape has one axis. -/
theorem contr_rank (h : IsTN d) : d.contr.rank = 1 := by rw [d.rank_contr, h.lc]; rfl

/-- That axis has the shared extent `K`. -/
theorem contr_size (h : IsTN d) : d.contr.size ⟨0, by rw [contr_rank h]; exact Nat.one_pos⟩ = K := by
  rw [d.size_contr 0 (by rw [h.lc]; exact Nat.one_pos), List.getElem_of_eq h.lc]
  rfl

/-- A coordinate of an index depends only on the axis number. -/
private theorem coord_congr {s : Shape} (j : s.Idx) (p q : Nat) (hp : p < s.rank) (hq : q < s.rank) (e : p = q) :
    (j ⟨p, hp⟩).val = (j ⟨q, hq⟩).val := by subst e; rfl

/-- The left operand's COLUMN is the result's row. -/
theorem lhs_col (h : IsTN d) (j : (⟨2, ![M, N]⟩ : Shape).Idx) (k : d.contr.Idx) : (d.lhsIdx j k 1).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by rw [h.lb, h.ln]; rfl)

/-- The right operand's ROW is the result's column. -/
theorem rhs_row (h : IsTN d) (j : (⟨2, ![M, N]⟩ : Shape).Idx) (k : d.contr.Idx) : (d.rhsIdx j k 0).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by rw [h.lb, h.ln, h.rn]; rfl)

/-- The library's sum over contraction multi-indices is the sum over the contracted coordinate: the first
    coordinate of the left operand, the second of the right. -/
theorem sum_contr (h : IsTN d) (l : (⟨2, ![K, M]⟩ : Shape).Idx → EReal) (r : (⟨2, ![N, K]⟩ : Shape).Idx → EReal)
    (j : (⟨2, ![M, N]⟩ : Shape).Idx) :
    ∑ k : d.contr.Idx, l (d.lhsIdx j k) * r (d.rhsIdx j k) = ∑ q : Fin K, l (ix2 q (j 0)) * r (ix2 (j 1) q) := by
  have hr : d.contr.rank = 1 := contr_rank h
  have hs : d.contr.size ⟨0, by omega⟩ = K := contr_size h
  rw [← Equiv.sum_comp (contrEquiv1 d K hr hs).symm]
  refine Finset.sum_congr rfl fun q _ => ?_
  have hq := contrEquiv1_symm_val d K hr hs q
  have el : d.lhsIdx j ((contrEquiv1 d K hr hs).symm q) = ix2 q (j 0) := funext fun a => Fin.ext (by
    match a with
    | ⟨0, _⟩ => exact (d.lhsIdx_val_of_single h.lc j _).trans hq
    | ⟨1, _⟩ => exact lhs_col h j _)
  have er : d.rhsIdx j ((contrEquiv1 d K hr hs).symm q) = ix2 (j 1) q := funext fun a => Fin.ext (by
    match a with
    | ⟨0, _⟩ => exact rhs_row h j _
    | ⟨1, _⟩ => exact (d.rhsIdx_val_of_single h.rc j _).trans hq)
  rw [el, er]
  rfl

/-- A `tpu.matmul` of this form into a zero accumulator, at entry `(p, c)`. -/
theorem matmul_zero_apply (h : IsTN d) (prec : Option ContractPrecision) {φ₁ φ₂ : FTy}
    (l : FVec Ideal ⟨2, ![K, M]⟩ φ₁) (r : FVec Ideal ⟨2, ![N, K]⟩ φ₂) (p : Fin M) (c : Fin N) :
    matmul d prec l r (constant ⟨2, ![M, N]⟩ .f32 0x00000000#32) (ix2 p c) = ∑ q : Fin K, l (ix2 q p) * r (ix2 c q) :=
  (Ideal.matmul_constant_zero_apply d prec l r (ix2 p c)).trans (sum_contr h l r (ix2 p c))

/-- The host's `dot_general` of this form, at entry `(p, c)`. -/
theorem dotGeneral_apply (h : IsTN d) (prec : Option ContractPrecision) {φ₁ φ₂ : FTy}
    (l : FVec Ideal ⟨2, ![K, M]⟩ φ₁) (r : FVec Ideal ⟨2, ![N, K]⟩ φ₂) (p : Fin M) (c : Fin N) :
    Host.dotGeneral d prec l r (ix2 p c) = ∑ q : Fin K, l (ix2 q p) * r (ix2 c q) :=
  (Ideal.dotGeneral_apply d prec .single l r (ix2 p c)).trans (sum_contr h l r (ix2 p c))

end Cert.DotTN

end
-- ==== Proof.LibColumnSum.lean ====
/-
  A sum down the rows of a matrix, read at one column.

  An [a, b] array of extended reals reduced by addition along axis 0 (its rows), from a zero initial value, holds at
  column l the finite sum over the a rows k of the entry (k, l). Stated with the operation's own proof arguments as
  variables, so that a printed reduction meets it in term mode whatever proofs it carries. Depends on no program.
-/
import Idealize.ShloMosaic.Lib.ValueIdx
import Idealize.ShloMosaic.PureOps.Ideal.Laws

noncomputable section

namespace Cert.Lib

open Idealize.ShloMosaic Idealize.ShloMosaic.ValueIdx

/-- The sum of column `l` of an [a, b] array over its `a` rows, from a zero initial value. -/
theorem column_sum {a b : ℕ} (v : FVec Ideal ⟨2, ![a, b]⟩ .f32) (h : (⟨2, ![a, b]⟩ : Shape).Reduces [0] ⟨1, ![b]⟩)
    (hφ : FKind.Formats .f32) (hacc : (0x00000000#32 : BitVec (FTy.f32).bits) = FKind.add.neutral .f32 hφ) (l : Fin b) :
    multiReduction .add [0] ⟨1, ![b]⟩ v 0x00000000#32 h hφ hacc (ix1 l) = ∑ k : Fin a, v (ix2 k l) :=
  (Ideal.multiReduction_add_single v 0x00000000#32 h hφ hacc (ix1 l)).trans
    (Finset.sum_congr rfl fun k _ => congrArg v (funext fun c => Fin.ext (by
      match c with
      | ⟨0, _⟩ => rfl
      | ⟨1, _⟩ => rfl)))

end Cert.Lib

end
-- ==== Proof.LibColumn.lean ====
/-
  A vector as a column. A length-`a` vector reshaped to `[a, 1]` reads, at `(i, 0)`, the vector at `i`; and an
  `[a, 1]` column broadcast across `b` columns reads, at `(p, c)`, the column at `(p, 0)`. (The companions for
  a row `[1, a]` are the library's.)
-/
import Idealize.ShloMosaic.Lib.ValueLayout
import Idealize.ShloMosaic.Lib.Pipeline.Value

noncomputable section

namespace Cert.Column

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Column

end
-- ==== Proof.LibAxisFold.lean ====
/-
  The maximum down a column, the maximum along a row and the sum along a row of a matrix, each read at one
  index.

  An [a, b] array of extended reals reduced by `max` along axis 0 (down its rows), from the value a starting
  word denotes, holds at column l the fold of `max` from that value over the entries (k, l), k < a; reduced
  along axis 1 it holds at row p the fold over the entries (p, k), k < b; and reduced by addition along axis 1
  from a zero starting value it holds at row p the finite sum of the entries (p, k). (The sum down a column is
  the companion file's.) Stated with the operation's own proof arguments as variables, so that a printed
  reduction meets each lemma in term mode whatever proofs it carries. Depends on no program.
-/
import Idealize.ShloMosaic.Lib.ValueIdx
import Idealize.ShloMosaic.PureOps.Ideal.Laws

noncomputable section

namespace Cert.AxisFold

open Idealize.ShloMosaic Idealize.ShloMosaic.ValueIdx

/-- The maximum of column `l` of an [a, b] array over its `a` rows, folded from the value of the word `acc`. -/
theorem column_max {a b : ℕ} (v : FVec Ideal ⟨2, ![a, b]⟩ .f32) (acc : BitVec (FTy.f32).bits)
    (h : (⟨2, ![a, b]⟩ : Shape).Reduces [0] ⟨1, ![b]⟩)
    (hφ : FKind.Formats .f32) (hacc : acc = FKind.maximumf.neutral .f32 hφ) (l : Fin b) :
    multiReduction .maximumf [0] ⟨1, ![b]⟩ v acc h hφ hacc (ix1 l)
      = (Finset.univ : Finset (Fin a)).fold max (Ideal.ofBits .f32 acc) fun k => v (ix2 k l) :=
  (Ideal.multiReduction_maximumf_single v acc h hφ hacc (ix1 l)).trans
    (congrArg (fun f => Finset.fold max (Ideal.ofBits .f32 acc) f (Finset.univ : Finset (Fin a)))
      (funext fun k => congrArg v (funext fun c => Fin.ext (by
        match c with
        | ⟨0, _⟩ => rfl
        | ⟨1, _⟩ => rfl))))

/-- The maximum of row `p` of an [a, b] array over its `b` columns, folded from the value of the word `acc`. -/
theorem row_max {a b : ℕ} (v : FVec Ideal ⟨2, ![a, b]⟩ .f32) (acc : BitVec (FTy.f32).bits)
    (h : (⟨2, ![a, b]⟩ : Shape).Reduces [1] ⟨1, ![a]⟩)
    (hφ : FKind.Formats .f32) (hacc : acc = FKind.maximumf.neutral .f32 hφ) (p : Fin a) :
    multiReduction .maximumf [1] ⟨1, ![a]⟩ v acc h hφ hacc (ix1 p)
      = (Finset.univ : Finset (Fin b)).fold max (Ideal.ofBits .f32 acc) fun k => v (ix2 p k) :=
  (Ideal.multiReduction_maximumf_single v acc h hφ hacc (ix1 p)).trans
    (congrArg (fun f => Finset.fold max (Ideal.ofBits .f32 acc) f (Finset.univ : Finset (Fin b)))
      (funext fun k => congrArg v (funext fun c => Fin.ext (by
        match c with
        | ⟨0, _⟩ => rfl
        | ⟨1, _⟩ => rfl))))

/-- The sum of row `p` of an [a, b] array over its `b` columns, from a zero initial value. -/
theorem row_sum {a b : ℕ} (v : FVec Ideal ⟨2, ![a, b]⟩ .f32) (h : (⟨2, ![a, b]⟩ : Shape).Reduces [1] ⟨1, ![a]⟩)
    (hφ : FKind.Formats .f32) (hacc : (0x00000000#32 : BitVec (FTy.f32).bits) = FKind.add.neutral .f32 hφ) (p : Fin a) :
    multiReduction .add [1] ⟨1, ![a]⟩ v 0x00000000#32 h hφ hacc (ix1 p) = ∑ k : Fin b, v (ix2 p k) :=
  (Ideal.multiReduction_add_single v 0x00000000#32 h hφ hacc (ix1 p)).trans
    (Finset.sum_congr rfl fun k _ => congrArg v (funext fun c => Fin.ext (by
      match c with
      | ⟨0, _⟩ => rfl
      | ⟨1, _⟩ => rfl)))

end Cert.AxisFold

end
-- ==== Proof.LibRealSum.lean ====
/-
  Real numbers inside the extended reals: they are closed under sums, products, maxima and finite sums,
  and on them a weighted sum of matrix-vector products may be exchanged with the matrix-vector product of
  the weighted sums. A sum over 136 consecutive coordinates is also split into blocks of 64, 64 and 8.
-/
import Idealize.ShloMosaic.PureOps.Ideal

noncomputable section

namespace Cert.RealSum

/-- An extended real that is a real number. -/
def IsReal (x : EReal) : Prop := ∃ r : ℝ, x = (r : EReal)

/-- Zero is a real number. -/
theorem isReal_zero : IsReal 0 := ⟨0, EReal.coe_zero.symm⟩

/-- The image of a real number in the extended reals is a real number. -/
theorem isReal_coe (r : ℝ) : IsReal (r : EReal) := ⟨r, rfl⟩

/-- The sum of two real numbers is a real number. -/
theorem IsReal.add {x y : EReal} (hx : IsReal x) (hy : IsReal y) : IsReal (x + y) := by
  obtain ⟨p, rfl⟩ := hx
  obtain ⟨q, rfl⟩ := hy
  exact ⟨p + q, (EReal.coe_add p q).symm⟩

/-- The product of two real numbers is a real number. -/
theorem IsReal.mul {x y : EReal} (hx : IsReal x) (hy : IsReal y) : IsReal (x * y) := by
  obtain ⟨p, rfl⟩ := hx
  obtain ⟨q, rfl⟩ := hy
  exact ⟨p * q, (EReal.coe_mul p q).symm⟩

/-- The larger of two real numbers is a real number, because it is one of the two. -/
theorem IsReal.max {x y : EReal} (hx : IsReal x) (hy : IsReal y) : IsReal (max x y) := by
  rcases max_choice x y with h | h
  · rw [h]; exact hx
  · rw [h]; exact hy

/-- A finite sum of real numbers is a real number. -/
theorem isReal_sum {ι : Type} (s : Finset ι) (f : ι → EReal) (h : ∀ e ∈ s, IsReal (f e)) :
    IsReal (∑ e ∈ s, f e) :=
  Finset.sum_induction f IsReal (fun _ _ hx hy => hx.add hy) isReal_zero h

/-- An extended real that is neither plus nor minus infinity is a real number. -/
theorem isReal_of_ne_top_of_ne_bot {x : EReal} (ht : x ≠ ⊤) (hb : x ≠ ⊥) : IsReal x :=
  ⟨x.toReal, (EReal.coe_toReal ht hb).symm⟩

/-- A nonnegative extended real other than plus infinity is a real number: being at least zero, it is
    not minus infinity either. -/
theorem isReal_of_nonneg_of_ne_top {x : EReal} (h0 : 0 ≤ x) (ht : x ≠ ⊤) : IsReal x :=
  isReal_of_ne_top_of_ne_bot ht (lt_of_lt_of_le EReal.bot_lt_zero h0).ne'

/-- The image of a finite sum of real numbers is the sum of the images. -/
private theorem coe_sum {ι : Type} (s : Finset ι) (g : ι → ℝ) :
    ((∑ e ∈ s, g e : ℝ) : EReal) = ∑ e ∈ s, (g e : EReal) := by
  classical
  induction s using Finset.induction_on with
  | empty => rw [Finset.sum_empty, Finset.sum_empty, EReal.coe_zero]
  | insert b t hb ih => rw [Finset.sum_insert hb, Finset.sum_insert hb, EReal.coe_add, ih]

/-- The exchange law over the real numbers: both sides expand to the double sum of `a e k * w k * c e`,
    summed in the two possible orders. -/
private theorem commute_real {ι κ : Type} [Fintype κ] (s : Finset ι) (a : ι → κ → ℝ) (w : κ → ℝ)
    (c : ι → ℝ) :
    ∑ e ∈ s, (∑ k, a e k * w k) * c e = ∑ k, (∑ e ∈ s, a e k * c e) * w k := by
  simp only [Finset.sum_mul]
  rw [Finset.sum_comm]
  refine Finset.sum_congr rfl (fun k _ => Finset.sum_congr rfl (fun e _ => ?_))
  exact mul_right_comm (a e k) (w k) (c e)

/-- THE COMMUTE LAW: a weighted sum over edges of matrix-vector products is the matrix-vector product of
    the weighted sums, when every entry is real. Both edge sums start from zero, as a scatter-add into a
    zero array does. -/
theorem commute {ι κ : Type} [Fintype κ] (s : Finset ι) (a : ι → κ → EReal) (w : κ → EReal)
    (c : ι → EReal) (ha : ∀ e k, IsReal (a e k)) (hw : ∀ k, IsReal (w k)) (hc : ∀ e, IsReal (c e)) :
    (0 + ∑ e ∈ s, (∑ k, a e k * w k) * c e) = ∑ k, (0 + ∑ e ∈ s, a e k * c e) * w k := by
  choose a' ha' using ha
  choose w' hw' using hw
  choose c' hc' using hc
  -- every entry is the image of a real number, so both sides are images of real expressions
  have hL : (0 + ∑ e ∈ s, (∑ k, a e k * w k) * c e)
      = ((∑ e ∈ s, (∑ k, a' e k * w' k) * c' e : ℝ) : EReal) := by
    rw [zero_add, coe_sum]
    refine Finset.sum_congr rfl (fun e _ => ?_)
    rw [EReal.coe_mul, coe_sum, hc' e]
    congr 1
    refine Finset.sum_congr rfl (fun k _ => ?_)
    rw [EReal.coe_mul, ha' e k, hw' k]
  have hR : (∑ k, (0 + ∑ e ∈ s, a e k * c e) * w k)
      = ((∑ k, (∑ e ∈ s, a' e k * c' e) * w' k : ℝ) : EReal) := by
    rw [coe_sum]
    refine Finset.sum_congr rfl (fun k _ => ?_)
    rw [zero_add, EReal.coe_mul, coe_sum, hw' k]
    congr 1
    refine Finset.sum_congr rfl (fun e _ => ?_)
    rw [EReal.coe_mul, ha' e k, hc' e]
  rw [hL, hR, commute_real s a' w' c']

/-- A sum over 136 coordinates split as 64 + 64 + 8 consecutive coordinates, grouped
    (first + second) + third. -/
theorem sum_split_136 (f : Fin 136 → EReal) :
    ∑ q : Fin 136, f q
      = (∑ q : Fin 64, f ⟨q.val, by omega⟩ + ∑ q : Fin 64, f ⟨64 + q.val, by omega⟩)
        + ∑ q : Fin 8, f ⟨128 + q.val, by omega⟩ := by
  have h1 : ∑ q : Fin (64 + 64 + 8), f q
      = ∑ q : Fin (64 + 64), f (Fin.castAdd 8 q) + ∑ q : Fin 8, f (Fin.natAdd (64 + 64) q) :=
    Fin.sum_univ_add (fun q : Fin (64 + 64 + 8) => f q)
  have h2 : ∑ q : Fin (64 + 64), f (Fin.castAdd 8 q)
      = ∑ q : Fin 64, f (Fin.castAdd 8 (Fin.castAdd 64 q))
        + ∑ q : Fin 64, f (Fin.castAdd 8 (Fin.natAdd 64 q)) :=
    Fin.sum_univ_add (fun q : Fin (64 + 64) => f (Fin.castAdd 8 q))
  rw [h2] at h1
  exact h1

end Cert.RealSum
-- ==== Proof.DualSoftmax.lean ====
/-
  Bilinear cross-correlation followed by two softmaxes, as functions on the extended reals.

  From two stacks of matrices `f1`, `f2` (one `S × D` matrix per batch entry) and one weight matrix `w`
  (`D × D`) the scores of a batch entry are `cc = (f1 · w) · f2ᵀ`. The first output weights the rows of
  `f1` by the softmax of `cc` taken down each column, the second weights the rows of `f2` by the softmax
  of `cc` taken along each row:
      out1[k, i] = Σ_p colSoft(cc)[p, k] · f1[i, p]        out2[s, i] = Σ_t rowSoft(cc)[s, t] · f2[i, t].
  A softmax is written the way it is computed: the maximum of the column (row) as a fold of `max` from a
  starting value `b`, the exponentials of the differences, and their quotient by their sum.

  One of the two programs forms each of the two products of `cc` as a sum of three: with every operand
  split as `x = x + (x − x)`, it adds `l · r`, `l · (r − r)` and `(l − l) · r`. On the extended reals
  `x − x` is `0` exactly when `x` is a real number (`+∞ − +∞` is not), so the three-term product equals
  the plain one when all entries are real — and a plain product of real matrices is again real, which
  carries the argument from the first product to the second.
-/
import Mathlib.Data.Finset.Fold
import Idealize.ShloMosaic.PureOps.Ideal
import Idealize.ShloMosaic.Lib.ValueIdx
import proofs.«130357_j41377714929724_2_alg».proof.Proof.LibRealSum

noncomputable section

open scoped BigOperators

namespace Cert.DualSoftmax

open Idealize.ShloMosaic Idealize.ShloMosaic.ValueIdx Cert.RealSum

/-! ## Products -/

section Products

variable {P Q D E : Type} [Fintype P] [Fintype Q] [Fintype D] [Fintype E]

/-- The product `l · r`: entry `(p, e)` is `Σ_d l[p, d] · r[d, e]`. -/
def prod (l : P → D → EReal) (r : D → E → EReal) : P → E → EReal := fun p e => ∑ d, l p d * r d e

/-- The product `l · rᵀ`: entry `(p, q)` is `Σ_e l[p, e] · r[q, e]`. -/
def prodT (l : P → E → EReal) (r : Q → E → EReal) : P → Q → EReal := fun p q => ∑ e, l p e * r q e

/-- `l · r` formed as three products: `l · r + l · (r − r) + (l − l) · r`. -/
def prod3 (l : P → D → EReal) (r : D → E → EReal) : P → E → EReal := fun p e =>
  prod l r p e + prod l (fun d e => r d e - r d e) p e + prod (fun p d => l p d - l p d) r p e

/-- `l · rᵀ` formed as three products: `l · rᵀ + l · (r − r)ᵀ + (l − l) · rᵀ`. -/
def prodT3 (l : P → E → EReal) (r : Q → E → EReal) : P → Q → EReal := fun p q =>
  prodT l r p q + prodT l (fun q e => r q e - r q e) p q + prodT (fun p e => l p e - l p e) r p q

/-- A real number minus itself is zero. -/
theorem sub_self_of_isReal {x : EReal} (h : IsReal x) : x - x = 0 := by
  obtain ⟨r, rfl⟩ := h
  rw [← EReal.coe_sub, sub_self, EReal.coe_zero]

/-- A product with a zero right factor is zero. -/
theorem prod_zero_right (l : P → D → EReal) (p : P) (e : E) : prod l (fun (_ : D) (_ : E) => (0 : EReal)) p e = 0 := by
  unfold prod
  exact Finset.sum_eq_zero fun d _ => mul_zero _

/-- A product with a zero left factor is zero. -/
theorem prod_zero_left (r : D → E → EReal) (p : P) (e : E) : prod (fun (_ : P) (_ : D) => (0 : EReal)) r p e = 0 := by
  unfold prod
  exact Finset.sum_eq_zero fun d _ => zero_mul _

theorem prodT_zero_right (l : P → E → EReal) (p : P) (q : Q) : prodT l (fun (_ : Q) (_ : E) => (0 : EReal)) p q = 0 := by
  unfold prodT
  exact Finset.sum_eq_zero fun e _ => mul_zero _

theorem prodT_zero_left (r : Q → E → EReal) (p : P) (q : Q) : prodT (fun (_ : P) (_ : E) => (0 : EReal)) r p q = 0 := by
  unfold prodT
  exact Finset.sum_eq_zero fun e _ => zero_mul _

/-- A product of real matrices is a real matrix. -/
theorem isReal_prod {l : P → D → EReal} {r : D → E → EReal} (hl : ∀ p d, IsReal (l p d)) (hr : ∀ d e, IsReal (r d e))
    (p : P) (e : E) : IsReal (prod l r p e) :=
  isReal_sum _ _ fun d _ => (hl p d).mul (hr d e)

/-- On real matrices the three-term product is the product: both low parts `x − x` vanish. -/
theorem prod3_eq {l : P → D → EReal} {r : D → E → EReal} (hl : ∀ p d, IsReal (l p d)) (hr : ∀ d e, IsReal (r d e)) :
    prod3 l r = prod l r := by
  have er : (fun d e => r d e - r d e) = fun (_ : D) (_ : E) => (0 : EReal) :=
    funext fun d => funext fun e => sub_self_of_isReal (hr d e)
  have el : (fun p d => l p d - l p d) = fun (_ : P) (_ : D) => (0 : EReal) :=
    funext fun p => funext fun d => sub_self_of_isReal (hl p d)
  funext p e
  unfold prod3
  rw [er, el, prod_zero_right, prod_zero_left, add_zero, add_zero]

/-- The same for `l · rᵀ`. -/
theorem prodT3_eq {l : P → E → EReal} {r : Q → E → EReal} (hl : ∀ p e, IsReal (l p e)) (hr : ∀ q e, IsReal (r q e)) :
    prodT3 l r = prodT l r := by
  have er : (fun q e => r q e - r q e) = fun (_ : Q) (_ : E) => (0 : EReal) :=
    funext fun q => funext fun e => sub_self_of_isReal (hr q e)
  have el : (fun p e => l p e - l p e) = fun (_ : P) (_ : E) => (0 : EReal) :=
    funext fun p => funext fun e => sub_self_of_isReal (hl p e)
  funext p q
  unfold prodT3
  rw [er, el, prodT_zero_right, prodT_zero_left, add_zero, add_zero]

/-- THE LAW: on real inputs the scores formed through three-term products are `(f1 · w) · f2ᵀ`. -/
theorem scores_eq {f1 : P → D → EReal} {w : D → E → EReal} {f2 : Q → E → EReal}
    (h1 : ∀ p d, IsReal (f1 p d)) (hw : ∀ d e, IsReal (w d e)) (h2 : ∀ q e, IsReal (f2 q e)) :
    prodT3 (prod3 f1 w) f2 = prodT (prod f1 w) f2 := by
  rw [prod3_eq h1 hw]
  exact prodT3_eq (isReal_prod h1 hw) h2

end Products

/-! ## The two softmaxes and the attended outputs -/

section Softmax

variable {P Q I : Type} [Fintype P] [Fintype Q]

/-- The maximum of column `q`, folded from `b`. -/
def colMax (b : EReal) (c : P → Q → EReal) (q : Q) : EReal := (Finset.univ : Finset P).fold max b fun p => c p q

/-- The maximum of row `p`, folded from `b`. -/
def rowMax (b : EReal) (c : P → Q → EReal) (p : P) : EReal := (Finset.univ : Finset Q).fold max b fun q => c p q

/-- The softmax down each column. -/
def colSoft (b : EReal) (c : P → Q → EReal) : P → Q → EReal := fun p q =>
  Ideal.div (Ideal.exp (c p q - colMax b c q)) (∑ p', Ideal.exp (c p' q - colMax b c q))

/-- The softmax along each row. -/
def rowSoft (b : EReal) (c : P → Q → EReal) : P → Q → EReal := fun p q =>
  Ideal.div (Ideal.exp (c p q - rowMax b c p)) (∑ q', Ideal.exp (c p q' - rowMax b c p))

/-- `out1[k, i] = Σ_p colSoft(c)[p, k] · f1[i, p]`. -/
def attendCols (b : EReal) (c : P → Q → EReal) (f1 : I → P → EReal) : Q → I → EReal := fun k i =>
  ∑ p, colSoft b c p k * f1 i p

/-- `out2[s, i] = Σ_t rowSoft(c)[s, t] · f2[i, t]`. -/
def attendRows (b : EReal) (c : P → Q → EReal) (f2 : I → Q → EReal) : P → I → EReal := fun s i =>
  ∑ t, rowSoft b c s t * f2 i t

/-- The starting value never exceeds the fold, so taking the larger of the two again changes nothing. -/
theorem max_fold_self {ι : Type} (s : Finset ι) (b : EReal) (f : ι → EReal) : max b (s.fold max b f) = s.fold max b f :=
  max_eq_right ((Finset.le_fold_max b).mpr (Or.inl le_rfl))

end Softmax

/-! ## Over the arrays of the two programs: 16 batch entries of 1024 × 1024 -/

/-- A stack of 16 matrices, and one matrix. -/
abbrev Stack : Type := (⟨3, ![16, 1024, 1024]⟩ : Shape).Idx → EReal
abbrev Mat : Type := (⟨2, ![1024, 1024]⟩ : Shape).Idx → EReal

/-- The coordinates of an index of a stack. -/
def c0 (j : (⟨3, ![16, 1024, 1024]⟩ : Shape).Idx) : Fin 16 := ⟨(j 0).val, (j 0).isLt⟩
def c1 (j : (⟨3, ![16, 1024, 1024]⟩ : Shape).Idx) : Fin 1024 := ⟨(j 1).val, (j 1).isLt⟩
def c2 (j : (⟨3, ![16, 1024, 1024]⟩ : Shape).Idx) : Fin 1024 := ⟨(j 2).val, (j 2).isLt⟩

/-- Matrix `b` of a stack, and a matrix, by coordinates. -/
def slab (a : Stack) (b : Fin 16) : Fin 1024 → Fin 1024 → EReal := fun p d => a (ix3 b p d)
def mat (w : Mat) : Fin 1024 → Fin 1024 → EReal := fun d e => w (ix2 d e)

/-- The value the maxima are folded from: what the single-precision word of minus infinity denotes. -/
def start : EReal := Ideal.ofBits .f32 0xFF800000#32

/-- The scores of batch entry `b`, through plain products and through three-term products. -/
def scores (a0 a1 : Stack) (w : Mat) (b : Fin 16) : Fin 1024 → Fin 1024 → EReal := prodT (prod (slab a0 b) (mat w)) (slab a1 b)
def scores3 (a0 a1 : Stack) (w : Mat) (b : Fin 16) : Fin 1024 → Fin 1024 → EReal := prodT3 (prod3 (slab a0 b) (mat w)) (slab a1 b)

/-- The two outputs as whole arrays, from the scores of every batch entry. -/
def out1 (sc : Fin 16 → Fin 1024 → Fin 1024 → EReal) (a0 : Stack) : Stack := fun j =>
  attendCols start (sc (c0 j)) (slab a0 (c0 j)) (c1 j) (c2 j)
def out2 (sc : Fin 16 → Fin 1024 → Fin 1024 → EReal) (a1 : Stack) : Stack := fun j =>
  attendRows start (sc (c0 j)) (slab a1 (c0 j)) (c1 j) (c2 j)

/-- On real inputs the two ways of forming the scores agree, for every batch entry. -/
theorem scores3_eq (a0 a1 : Stack) (w : Mat) (h0 : ∀ i, IsReal (a0 i)) (h1 : ∀ i, IsReal (a1 i)) (hw : ∀ i, IsReal (w i)) :
    scores3 a0 a1 w = scores a0 a1 w :=
  funext fun b => scores_eq (fun p d => h0 (ix3 b p d)) (fun d e => hw (ix2 d e)) (fun q e => h1 (ix3 b q e))

end Cert.DualSoftmax

end
-- ==== Proof.KernelBlock.lean ====
/-
  One grid point of the kernel, on the extended reals: what the body computes from the three blocks it loads.

  The body loads a `1 × 1024 × 1024` block `v0` of the first stack, a block `v2` of the second and the whole
  weight matrix `v4`, and stores two `1 × 1024 × 1024` blocks. Written as arrays its arithmetic is:
    * the scores `cc = splitT (split f1 w) f2`, each product formed as three (`split`, `splitT`: the operand,
      and the operand minus itself, as the two halves of each factor);
    * `softCols cc`: column maxima, exponentials of the differences, column sums, quotient;
    * `softRows cc`: the same along rows;
    * the two stored blocks, `softCols(cc)ᵀ · f1ᵀ` and `softRows(cc) · f2ᵀ`, each with a leading unit axis.
  Each of these is read here at one index as the corresponding function of `DualSoftmax`, with the loaded
  blocks read as matrices by coordinates. A change of float format is the identity on the extended reals, so
  the conversions to and from the 16-bit format leave no trace.
-/
import proofs.«130357_j41377714929724_2_alg».proof.Proof.Gen.KernelIdeal.Skeleton
import proofs.«130357_j41377714929724_2_alg».proof.Proof.LibPlainDot
import proofs.«130357_j41377714929724_2_alg».proof.Proof.LibDotNT
import proofs.«130357_j41377714929724_2_alg».proof.Proof.LibDotTN
import proofs.«130357_j41377714929724_2_alg».proof.Proof.LibColumnSum
import proofs.«130357_j41377714929724_2_alg».proof.Proof.LibColumn
import proofs.«130357_j41377714929724_2_alg».proof.Proof.LibAxisFold
import proofs.«130357_j41377714929724_2_alg».proof.Proof.DualSoftmax
import Idealize.ShloMosaic.Lib.ValueLayout
import Idealize.ShloMosaic.Lib.Pipeline.Value

noncomputable section

open scoped BigOperators

namespace Cert.KernelIdeal.Block

open Idealize.ShloMosaic Idealize.ShloMosaic.ValueIdx Cert.KernelIdeal Cert.KernelIdeal.Gen Cert.DualSoftmax

/-! ## The three products' dimension numbers -/

theorem dims_plain : Cert.PlainDot.IsPlain (M := 1024) (K := 1024) (N := 1024) dot_S1024x1024_S1024x1024_S1024x1024_1_0_0_1_n_n :=
  ⟨rfl, rfl, rfl, rfl, rfl, rfl⟩

theorem dims_nt : Cert.DotNT.IsNT (M := 1024) (K := 1024) (N := 1024) dot_S1024x1024_S1024x1024_S1024x1024_1_1_0_0_n_n :=
  ⟨rfl, rfl, rfl, rfl, rfl, rfl⟩

theorem dims_tn : Cert.DotTN.IsTN (M := 1024) (K := 1024) (N := 1024) dot_S1024x1024_S1024x1024_S1024x1024_0_1_1_0_n_n :=
  ⟨rfl, rfl, rfl, rfl, rfl, rfl⟩

/-! ## A loaded block as a matrix -/

/-- A `1 × 1024 × 1024` block read as a matrix by coordinates. -/
def blk (v : FVec Ideal S1x1024x1024 .f32) : Fin 1024 → Fin 1024 → EReal := fun p d => v (ix3 (0 : Fin 1) p d)

/-- Dropping the block's unit axis changes nothing. -/
theorem mat_pay3 (v0 : FVec Ideal S1x1024x1024 .f32) : mat (k0_pay3 (F := Ideal) v0) = blk v0 :=
  funext fun p => funext fun d => shapeCast_1ab_ab_apply v0 shapeCasts_S1x1024x1024_S1024x1024 p d

theorem mat_pay4 (v2 : FVec Ideal S1x1024x1024 .f32) : mat (k0_pay4 (F := Ideal) v2) = blk v2 :=
  funext fun p => funext fun d => shapeCast_1ab_ab_apply v2 shapeCasts_S1x1024x1024_S1024x1024 p d

/-! ## The products formed as three -/

/-- `l · r` as the body forms it. -/
def split (l r : FVec Ideal S1024x1024 .f32) : FVec Ideal S1024x1024 .f32 :=
  addf (addf
    (matmul dot_S1024x1024_S1024x1024_S1024x1024_1_0_0_1_n_n none (truncf .bf16 l bitsLt_bf16_f32) (truncf .bf16 r bitsLt_bf16_f32)
      (constant (F := Ideal) S1024x1024 .f32 0x00000000#32))
    (matmul dot_S1024x1024_S1024x1024_S1024x1024_1_0_0_1_n_n none (truncf .bf16 l bitsLt_bf16_f32) (truncf .bf16 (subf r r) bitsLt_bf16_f32)
      (constant (F := Ideal) S1024x1024 .f32 0x00000000#32)))
    (matmul dot_S1024x1024_S1024x1024_S1024x1024_1_0_0_1_n_n none (truncf .bf16 (subf l l) bitsLt_bf16_f32) (truncf .bf16 r bitsLt_bf16_f32)
      (constant (F := Ideal) S1024x1024 .f32 0x00000000#32))

/-- `l · rᵀ` as the body forms it. -/
def splitT (l r : FVec Ideal S1024x1024 .f32) : FVec Ideal S1024x1024 .f32 :=
  addf (addf
    (matmul dot_S1024x1024_S1024x1024_S1024x1024_1_1_0_0_n_n none (truncf .bf16 l bitsLt_bf16_f32) (truncf .bf16 r bitsLt_bf16_f32)
      (constant (F := Ideal) S1024x1024 .f32 0x00000000#32))
    (matmul dot_S1024x1024_S1024x1024_S1024x1024_1_1_0_0_n_n none (truncf .bf16 l bitsLt_bf16_f32) (truncf .bf16 (subf r r) bitsLt_bf16_f32)
      (constant (F := Ideal) S1024x1024 .f32 0x00000000#32)))
    (matmul dot_S1024x1024_S1024x1024_S1024x1024_1_1_0_0_n_n none (truncf .bf16 (subf l l) bitsLt_bf16_f32) (truncf .bf16 r bitsLt_bf16_f32)
      (constant (F := Ideal) S1024x1024 .f32 0x00000000#32))

theorem split_apply (l r : FVec Ideal S1024x1024 .f32) (p e : Fin 1024) : split l r (ix2 p e) = prod3 (mat l) (mat r) p e := by
  unfold split
  rw [addf_apply, addf_apply, Cert.PlainDot.matmul_zero_apply dims_plain, Cert.PlainDot.matmul_zero_apply dims_plain,
    Cert.PlainDot.matmul_zero_apply dims_plain]
  rfl

theorem splitT_apply (l r : FVec Ideal S1024x1024 .f32) (p q : Fin 1024) : splitT l r (ix2 p q) = prodT3 (mat l) (mat r) p q := by
  unfold splitT
  rw [addf_apply, addf_apply, Cert.DotNT.matmul_zero_apply dims_nt, Cert.DotNT.matmul_zero_apply dims_nt,
    Cert.DotNT.matmul_zero_apply dims_nt]
  rfl

theorem mat_split (l r : FVec Ideal S1024x1024 .f32) : mat (split l r) = prod3 (mat l) (mat r) :=
  funext fun p => funext fun e => split_apply l r p e

theorem mat_splitT (l r : FVec Ideal S1024x1024 .f32) : mat (splitT l r) = prodT3 (mat l) (mat r) :=
  funext fun p => funext fun q => splitT_apply l r p q

/-- The scores the body computes from its three loads. -/
theorem pay5_eq (v0 v2 : FVec Ideal S1x1024x1024 .f32) (v4 : FVec Ideal S1024x1024 .f32) :
    k0_pay5 (F := Ideal) v0 v2 v4 = splitT (split (k0_pay3 v0) v4) (k0_pay4 v2) := rfl

theorem mat_pay5 (v0 v2 : FVec Ideal S1x1024x1024 .f32) (v4 : FVec Ideal S1024x1024 .f32) :
    mat (k0_pay5 (F := Ideal) v0 v2 v4) = prodT3 (prod3 (blk v0) (mat v4)) (blk v2) := by
  rw [pay5_eq, mat_splitT, mat_split, mat_pay3, mat_pay4]

/-! ## A vector laid out as a row or as a column and broadcast -/

/-- A vector as one row, repeated down the rows, reads the vector at the column. -/
theorem rowBcast_apply (v : FVec Ideal S1024 .f32) (p q : Fin 1024) :
    broadcastTo S1024x1024 (shapeCast S1x1024 v shapeCasts_S1024_S1x1024) broadcasts_S1x1024_S1024x1024 (ix2 p q) = v (ix1 q) :=
  (broadcastTo_1b_ab_apply _ broadcasts_S1x1024_S1024x1024 p q).trans (shapeCast_a_1a_apply v shapeCasts_S1024_S1x1024 0 q)

/-- A vector as one column, repeated across the columns, reads the vector at the row. -/
theorem colBcast_apply (v : FVec Ideal S1024 .f32) (p q : Fin 1024) :
    broadcastTo S1024x1024 (shapeCast S1024x1 v shapeCasts_S1024_S1024x1) broadcasts_S1024x1_S1024x1024 (ix2 p q) = v (ix1 p) :=
  (Cert.Column.broadcastTo_a1_ab_apply _ broadcasts_S1024x1_S1024x1024 p q).trans
    (Cert.Column.shapeCast_a_a1_apply v shapeCasts_S1024_S1024x1 p 0)

/-! ## The softmax down the columns -/

def colMaxV (c : FVec Ideal S1024x1024 .f32) : FVec Ideal S1024 .f32 :=
  multiReduction .maximumf [0] S1024 c 0xFF800000#32 reduces_S1024x1024_S1024 (.inl rfl) rfl

def colShiftExp (c : FVec Ideal S1024x1024 .f32) : FVec Ideal S1024x1024 .f32 :=
  exp (subf c (broadcastTo S1024x1024 (shapeCast S1x1024 (colMaxV c) shapeCasts_S1024_S1x1024) broadcasts_S1x1024_S1024x1024))

def colSumV (c : FVec Ideal S1024x1024 .f32) : FVec Ideal S1024 .f32 :=
  multiReduction .add [0] S1024 (colShiftExp c) 0x00000000#32 reduces_S1024x1024_S1024 (.inl rfl) rfl

def softCols (c : FVec Ideal S1024x1024 .f32) : FVec Ideal S1024x1024 .f32 :=
  divf (colShiftExp c) (broadcastTo S1024x1024 (shapeCast S1x1024 (colSumV c) shapeCasts_S1024_S1x1024) broadcasts_S1x1024_S1024x1024)

theorem colMaxV_apply (c : FVec Ideal S1024x1024 .f32) (q : Fin 1024) : colMaxV c (ix1 q) = colMax start (mat c) q :=
  Cert.AxisFold.column_max c 0xFF800000#32 reduces_S1024x1024_S1024 (.inl rfl) rfl q

theorem colShiftExp_apply (c : FVec Ideal S1024x1024 .f32) (p q : Fin 1024) :
    colShiftExp c (ix2 p q) = Ideal.exp (mat c p q - colMax start (mat c) q) := by
  show Ideal.exp (c (ix2 p q) - broadcastTo S1024x1024 (shapeCast S1x1024 (colMaxV c) shapeCasts_S1024_S1x1024) broadcasts_S1x1024_S1024x1024 (ix2 p q)) = _
  rw [rowBcast_apply, colMaxV_apply]
  rfl

theorem colSumV_apply (c : FVec Ideal S1024x1024 .f32) (q : Fin 1024) :
    colSumV c (ix1 q) = ∑ p : Fin 1024, Ideal.exp (mat c p q - colMax start (mat c) q) :=
  (Cert.Lib.column_sum (colShiftExp c) reduces_S1024x1024_S1024 (.inl rfl) rfl q).trans
    (Finset.sum_congr rfl fun p _ => colShiftExp_apply c p q)

theorem softCols_apply (c : FVec Ideal S1024x1024 .f32) (p q : Fin 1024) : softCols c (ix2 p q) = colSoft start (mat c) p q := by
  show Ideal.div (colShiftExp c (ix2 p q))
    (broadcastTo S1024x1024 (shapeCast S1x1024 (colSumV c) shapeCasts_S1024_S1x1024) broadcasts_S1x1024_S1024x1024 (ix2 p q)) = _
  rw [rowBcast_apply, colShiftExp_apply, colSumV_apply]
  rfl

/-- The column softmax the body converts to the 16-bit format. -/
theorem pay6_eq (v0 v2 : FVec Ideal S1x1024x1024 .f32) (v4 : FVec Ideal S1024x1024 .f32) :
    k0_pay6 (F := Ideal) v0 v2 v4 = truncf .bf16 (softCols (k0_pay5 (F := Ideal) v0 v2 v4)) bitsLt_bf16_f32 := rfl

/-! ## The softmax along the rows -/

def rowMaxV (c : FVec Ideal S1024x1024 .f32) : FVec Ideal S1024 .f32 :=
  multiReduction .maximumf [1] S1024 c 0xFF800000#32 reduces_S1024x1024_S1024_2 (.inl rfl) rfl

def rowShiftExp (c : FVec Ideal S1024x1024 .f32) (m : FVec Ideal S1024 .f32) : FVec Ideal S1024x1024 .f32 :=
  exp (subf c (broadcastTo S1024x1024 (shapeCast S1024x1 m shapeCasts_S1024_S1024x1) broadcasts_S1024x1_S1024x1024))

def rowSumV (c : FVec Ideal S1024x1024 .f32) (m : FVec Ideal S1024 .f32) : FVec Ideal S1024 .f32 :=
  multiReduction .add [1] S1024 (rowShiftExp c m) 0x00000000#32 reduces_S1024x1024_S1024_2 (.inl rfl) rfl

def softRows (c : FVec Ideal S1024x1024 .f32) (m : FVec Ideal S1024 .f32) : FVec Ideal S1024x1024 .f32 :=
  divf (rowShiftExp c m) (broadcastTo S1024x1024 (shapeCast S1024x1 (rowSumV c m) shapeCasts_S1024_S1024x1) broadcasts_S1024x1_S1024x1024)

theorem rowMaxV_apply (c : FVec Ideal S1024x1024 .f32) (p : Fin 1024) : rowMaxV c (ix1 p) = rowMax start (mat c) p :=
  Cert.AxisFold.row_max c 0xFF800000#32 reduces_S1024x1024_S1024_2 (.inl rfl) rfl p

theorem rowShiftExp_apply (c : FVec Ideal S1024x1024 .f32) (p q : Fin 1024) :
    rowShiftExp c (rowMaxV c) (ix2 p q) = Ideal.exp (mat c p q - rowMax start (mat c) p) := by
  show Ideal.exp (c (ix2 p q) - broadcastTo S1024x1024 (shapeCast S1024x1 (rowMaxV c) shapeCasts_S1024_S1024x1) broadcasts_S1024x1_S1024x1024 (ix2 p q)) = _
  rw [colBcast_apply, rowMaxV_apply]
  rfl

theorem rowSumV_apply (c : FVec Ideal S1024x1024 .f32) (p : Fin 1024) :
    rowSumV c (rowMaxV c) (ix1 p) = ∑ q : Fin 1024, Ideal.exp (mat c p q - rowMax start (mat c) p) :=
  (Cert.AxisFold.row_sum (rowShiftExp c (rowMaxV c)) reduces_S1024x1024_S1024_2 (.inl rfl) rfl p).trans
    (Finset.sum_congr rfl fun q _ => rowShiftExp_apply c p q)

theorem softRows_apply (c : FVec Ideal S1024x1024 .f32) (p q : Fin 1024) :
    softRows c (rowMaxV c) (ix2 p q) = rowSoft start (mat c) p q := by
  show Ideal.div (rowShiftExp c (rowMaxV c) (ix2 p q))
    (broadcastTo S1024x1024 (shapeCast S1024x1 (rowSumV c (rowMaxV c)) shapeCasts_S1024_S1024x1) broadcasts_S1024x1_S1024x1024 (ix2 p q)) = _
  rw [colBcast_apply, rowShiftExp_apply, rowSumV_apply]
  rfl

/-- The row maxima the body carries to its second half. -/
theorem pay7_eq (v0 v2 : FVec Ideal S1x1024x1024 .f32) (v4 : FVec Ideal S1024x1024 .f32) :
    k0_pay7 (F := Ideal) v0 v2 v4 = rowMaxV (k0_pay5 (F := Ideal) v0 v2 v4) := rfl

/-! ## The two stored blocks -/

/-- `softCols(c)ᵀ · f1ᵀ` with a leading unit axis. -/
def outCols (f1 c : FVec Ideal S1024x1024 .f32) : FVec Ideal S1x1024x1024 .f32 :=
  shapeCast S1x1024x1024
    (matmul dot_S1024x1024_S1024x1024_S1024x1024_0_1_1_0_n_n none (truncf .bf16 (softCols c) bitsLt_bf16_f32) (truncf .bf16 f1 bitsLt_bf16_f32)
      (constant (F := Ideal) S1024x1024 .f32 0x00000000#32))
    shapeCasts_S1024x1024_S1x1024x1024

/-- `softRows(c) · f2ᵀ` with a leading unit axis. -/
def outRows (f2 c : FVec Ideal S1024x1024 .f32) (m : FVec Ideal S1024 .f32) : FVec Ideal S1x1024x1024 .f32 :=
  shapeCast S1x1024x1024
    (matmul dot_S1024x1024_S1024x1024_S1024x1024_1_1_0_0_n_n none (truncf .bf16 (softRows c m) bitsLt_bf16_f32) (truncf .bf16 f2 bitsLt_bf16_f32)
      (constant (F := Ideal) S1024x1024 .f32 0x00000000#32))
    shapeCasts_S1024x1024_S1x1024x1024

theorem outCols_apply (f1 c : FVec Ideal S1024x1024 .f32) (u : Fin 1) (k i : Fin 1024) :
    outCols f1 c (ix3 u k i) = attendCols start (mat c) (mat f1) k i :=
  (shapeCast_ab_1ab_apply _ shapeCasts_S1024x1024_S1x1024x1024 u k i).trans
    ((Cert.DotTN.matmul_zero_apply dims_tn none _ _ k i).trans
      (Finset.sum_congr rfl fun p _ => congrArg (· * f1 (ix2 i p)) (softCols_apply c p k)))

theorem outRows_apply (f2 c : FVec Ideal S1024x1024 .f32) (u : Fin 1) (s i : Fin 1024) :
    outRows f2 c (rowMaxV c) (ix3 u s i) = attendRows start (mat c) (mat f2) s i :=
  (shapeCast_ab_1ab_apply _ shapeCasts_S1024x1024_S1x1024x1024 u s i).trans
    ((Cert.DotNT.matmul_zero_apply dims_nt none _ _ s i).trans
      (Finset.sum_congr rfl fun t _ => congrArg (· * f2 (ix2 i t)) (softRows_apply c s t)))

/-- THE FIRST STORED BLOCK at an index, from the three loaded blocks. -/
theorem pay1_apply (v0 v2 : FVec Ideal S1x1024x1024 .f32) (v4 : FVec Ideal S1024x1024 .f32) (u : Fin 1) (k i : Fin 1024) :
    k0_pay1 (F := Ideal) (k0_pay3 v0) (k0_pay6 v0 v2 v4) (ix3 u k i)
      = attendCols start (prodT3 (prod3 (blk v0) (mat v4)) (blk v2)) (blk v0) k i := by
  show outCols (k0_pay3 v0) (k0_pay5 (F := Ideal) v0 v2 v4) (ix3 u k i) = _
  rw [outCols_apply, mat_pay5, mat_pay3]

/-- THE SECOND STORED BLOCK at an index, from the three loaded blocks. -/
theorem pay2_apply (v0 v2 : FVec Ideal S1x1024x1024 .f32) (v4 : FVec Ideal S1024x1024 .f32) (u : Fin 1) (s i : Fin 1024) :
    k0_pay2 (F := Ideal) (k0_pay4 v2) (k0_pay5 v0 v2 v4) (k0_pay7 v0 v2 v4) (ix3 u s i)
      = attendRows start (prodT3 (prod3 (blk v0) (mat v4)) (blk v2)) (blk v2) s i := by
  show outRows (k0_pay4 v2) (k0_pay5 (F := Ideal) v0 v2 v4) (rowMaxV (k0_pay5 (F := Ideal) v0 v2 v4)) (ix3 u s i) = _
  rw [outRows_apply, mat_pay5, mat_pay4]

end Cert.KernelIdeal.Block

end
-- ==== Proof.KernelArray.lean ====
/-
  From the grid points to the whole arrays: after the kernel's run each result array is one function of the
  argument arrays.

  The grid has 16 points, one per batch entry. At point `t` the two input windows hold matrix `t` of the two
  stacks (block index `(t, 0, 0)`, block shape `1 × 1024 × 1024`), the third holds the whole weight matrix, and
  the two output windows write matrix `t` of the two results. So the block the body stores at point `t` is
  block `t` of `out1` resp. `out2` of `DualSoftmax` over the three-term scores, and since every index
  `(b, k, i)` of a result lies in the block of point `b`, the blocks cover the arrays.
-/
import proofs.«130357_j41377714929724_2_alg».proof.Proof.Gen.KernelIdeal.Value
import proofs.«130357_j41377714929724_2_alg».proof.Proof.KernelBlock
import Idealize.ShloMosaic.Lib.Pipeline.Value

noncomputable section

namespace Cert.KernelIdeal.Whole

open Cert.KernelIdeal Cert.KernelIdeal.Gen Cert.KernelIdeal.Value Cert.KernelIdeal.Block Cert.DualSoftmax
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem zeros3 : (![0, 0, 0] : Fin 3 → Nat) = fun _ => 0 := funext fun a => by fin_cases a <;> rfl
theorem zeros2 : (![0, 0] : Fin 2 → Nat) = fun _ => 0 := funext fun a => by fin_cases a <;> rfl

/-- The three argument arrays on core `c`. -/
abbrev stack0 (c : Dev nD) : Stack := m ((c : Thread nD τ).loc main_arg0)
abbrev stack1 (c : Dev nD) : Stack := m ((c : Thread nD τ).loc main_arg1)
abbrev weights (c : Dev nD) : Mat := m ((c : Thread nD τ).loc main_arg2)

/-- The batch entry grid point `t` works on. -/
def batchOf (t : Fin cfg0.N) : Fin 16 := ⟨t.val, lt_of_lt_of_eq t.isLt (show cfg0.N = 16 from N_0)⟩

/-- The printed index maps, decided over the 16 points: the stacks' windows and the results' windows sit at block
    `(t, 0, 0)`, the weight matrix's window at block `(0, 0)`. -/
theorem index_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

/-! ## The input blocks at a point -/

/-- The first stack's block at point `t` is its matrix `t`. -/
theorem block0 (c : Dev nD) (t : Fin cfg0.N) : blk (iblk m c 0 t) = slab (stack0 m c) (batchOf t) := by
  obtain ⟨e0, e1, e2, -⟩ := index_facts t
  funext p d
  show (iblk m c 0 t : Vec Ideal S1x1024x1024 .f32) (ix3 (0 : Fin 1) p d) = stack0 m c (ix3 (batchOf t) p d)
  unfold iblk
  rw [View.read_apply]
  show V m c main_arg0 _ = m ((c : Thread nD τ).loc main_arg0) _
  unfold V
  congr 1
  funext a
  apply Fin.ext
  match a with
  | ⟨0, _⟩ => show win0_0.index t (0 : Fin 3) * 1 + 1 * 0 = t.val; omega
  | ⟨1, _⟩ => show win0_0.index t (1 : Fin 3) * 1024 + 1 * p.val = p.val; omega
  | ⟨2, _⟩ => show win0_0.index t (2 : Fin 3) * 1024 + 1 * d.val = d.val; omega

/-- The second stack's block at point `t` is its matrix `t`. -/
theorem block1 (c : Dev nD) (t : Fin cfg0.N) : blk (iblk m c 1 t) = slab (stack1 m c) (batchOf t) := by
  obtain ⟨-, -, -, e0, e1, e2, -⟩ := index_facts t
  funext p d
  show (iblk m c 1 t : Vec Ideal S1x1024x1024 .f32) (ix3 (0 : Fin 1) p d) = stack1 m c (ix3 (batchOf t) p d)
  unfold iblk
  rw [View.read_apply]
  show V m c main_arg1 _ = m ((c : Thread nD τ).loc main_arg1) _
  unfold V
  congr 1
  funext a
  apply Fin.ext
  match a with
  | ⟨0, _⟩ => show win0_1.index t (0 : Fin 3) * 1 + 1 * 0 = t.val; omega
  | ⟨1, _⟩ => show win0_1.index t (1 : Fin 3) * 1024 + 1 * p.val = p.val; omega
  | ⟨2, _⟩ => show win0_1.index t (2 : Fin 3) * 1024 + 1 * d.val = d.val; omega

/-- The weight matrix's block at every point is the whole matrix. -/
theorem block2 (c : Dev nD) (t : Fin cfg0.N) : mat (iblk m c 2 t) = mat (weights m c) := by
  obtain ⟨-, -, -, -, -, -, e0, e1, -⟩ := index_facts t
  funext p d
  show (iblk m c 2 t : Vec Ideal S1024x1024 .f32) (ix2 p d) = weights m c (ix2 p d)
  unfold iblk
  rw [View.read_apply]
  show V m c main_arg2 _ = m ((c : Thread nD τ).loc main_arg2) _
  unfold V
  congr 1
  funext a
  apply Fin.ext
  match a with
  | ⟨0, _⟩ => show win0_2.index t (0 : Fin 2) * 1024 + 1 * p.val = p.val; omega
  | ⟨1, _⟩ => show win0_2.index t (1 : Fin 2) * 1024 + 1 * d.val = d.val; omega

/-! ## The stored blocks as blocks of the whole results -/

/-- If the three loaded blocks are matrix `b` of the two stacks and the weight matrix, the first stored block at
    `y` is `out1` at the index with batch coordinate `b` and `y`'s matrix coordinates. -/
theorem store1_at (v0 v2 : FVec Ideal S1x1024x1024 .f32) (v4 : FVec Ideal S1024x1024 .f32) (a0 a1 : Stack) (w : Mat) (b : Fin 16)
    (h0 : blk v0 = slab a0 b) (h1 : blk v2 = slab a1 b) (h2 : mat v4 = mat w)
    (y : S1x1024x1024.Idx) (i : S16x1024x1024.Idx)
    (hi0 : (i 0).val = b.val) (hi1 : (i 1).val = (y 1).val) (hi2 : (i 2).val = (y 2).val) :
    k0_pay1 (F := Ideal) (k0_pay3 v0) (k0_pay6 v0 v2 v4) y = out1 (scores3 a0 a1 w) a0 i := by
  obtain ⟨u, k, j, rfl⟩ : ∃ (u : Fin 1) (k j : Fin 1024), y = ix3 u k j := ⟨y 0, y 1, y 2, eq_ix3 y⟩
  have hi : i = ix3 b k j := funext fun a => Fin.ext (by
    match a with
    | ⟨0, _⟩ => exact hi0
    | ⟨1, _⟩ => exact hi1
    | ⟨2, _⟩ => exact hi2)
  subst hi
  rw [pay1_apply, h0, h1, h2]
  rfl

/-- The same for the second stored block and `out2`. -/
theorem store2_at (v0 v2 : FVec Ideal S1x1024x1024 .f32) (v4 : FVec Ideal S1024x1024 .f32) (a0 a1 : Stack) (w : Mat) (b : Fin 16)
    (h0 : blk v0 = slab a0 b) (h1 : blk v2 = slab a1 b) (h2 : mat v4 = mat w)
    (y : S1x1024x1024.Idx) (i : S16x1024x1024.Idx)
    (hi0 : (i 0).val = b.val) (hi1 : (i 1).val = (y 1).val) (hi2 : (i 2).val = (y 2).val) :
    k0_pay2 (F := Ideal) (k0_pay4 v2) (k0_pay5 v0 v2 v4) (k0_pay7 v0 v2 v4) y = out2 (scores3 a0 a1 w) a1 i := by
  obtain ⟨u, s, j, rfl⟩ : ∃ (u : Fin 1) (s j : Fin 1024), y = ix3 u s j := ⟨y 0, y 1, y 2, eq_ix3 y⟩
  have hi : i = ix3 b s j := funext fun a => Fin.ext (by
    match a with
    | ⟨0, _⟩ => exact hi0
    | ⟨1, _⟩ => exact hi1
    | ⟨2, _⟩ => exact hi2)
  subst hi
  rw [pay2_apply, h0, h1, h2]
  rfl

/-- WHAT POINT `t` WRITES BACK to the first result is block `t` of `out1` of the argument arrays. -/
theorem flushed3_eq (c : Dev nD) (t : Fin cfg0.N) :
    (dats m 0 c).flushed 3 t
      = ((cfg0.win 3).blk t).view.read (Elt Ideal) (out1 (scores3 (stack0 m c) (stack1 m c) (weights m c)) (stack0 m c)) := by
  rw [flushed3]
  unfold out0_3
  rw [View.canon_unit_zero zeros3]
  simp only [View.ld_unit_zero (S := S1x1024x1024) zeros3, View.ld_unit_zero (S := S1024x1024) zeros2]
  obtain ⟨-, -, -, -, -, -, -, -, e0, e1, e2, -⟩ := index_facts t
  funext j
  show k0_pay1 (F := Ideal) (k0_pay3 (iblk m c 0 t)) (k0_pay6 (iblk m c 0 t) (iblk m c 1 t) (iblk m c 2 t)) j
    = out1 (scores3 (stack0 m c) (stack1 m c) (weights m c)) (stack0 m c) (((cfg0.win 3).blk t).view.emb j)
  have hj : (j 0).val < 1 := (j 0).isLt
  refine store1_at (iblk m c 0 t) (iblk m c 1 t) (iblk m c 2 t) (stack0 m c) (stack1 m c) (weights m c) (batchOf t)
    (block0 m c t) (block1 m c t) (block2 m c t) j (((cfg0.win 3).blk t).view.emb j) ?_ ?_ ?_
  · show win0_3.index t (0 : Fin 3) * 1 + 1 * (j 0).val = t.val; omega
  · show win0_3.index t (1 : Fin 3) * 1024 + 1 * (j 1).val = (j 1).val; omega
  · show win0_3.index t (2 : Fin 3) * 1024 + 1 * (j 2).val = (j 2).val; omega

/-- WHAT POINT `t` WRITES BACK to the second result is block `t` of `out2` of the argument arrays. -/
theorem flushed4_eq (c : Dev nD) (t : Fin cfg0.N) :
    (dats m 0 c).flushed 4 t
      = ((cfg0.win 4).blk t).view.read (Elt Ideal) (out2 (scores3 (stack0 m c) (stack1 m c) (weights m c)) (stack1 m c)) := by
  rw [flushed4]
  unfold out0_4
  rw [View.canon_unit_zero zeros3]
  simp only [View.ld_unit_zero (S := S1x1024x1024) zeros3, View.ld_unit_zero (S := S1024x1024) zeros2]
  obtain ⟨-, -, -, -, -, -, -, -, -, -, -, e0, e1, e2⟩ := index_facts t
  funext j
  show k0_pay2 (F := Ideal) (k0_pay4 (iblk m c 1 t)) (k0_pay5 (iblk m c 0 t) (iblk m c 1 t) (iblk m c 2 t))
      (k0_pay7 (iblk m c 0 t) (iblk m c 1 t) (iblk m c 2 t)) j
    = out2 (scores3 (stack0 m c) (stack1 m c) (weights m c)) (stack1 m c) (((cfg0.win 4).blk t).view.emb j)
  have hj : (j 0).val < 1 := (j 0).isLt
  refine store2_at (iblk m c 0 t) (iblk m c 1 t) (iblk m c 2 t) (stack0 m c) (stack1 m c) (weights m c) (batchOf t)
    (block0 m c t) (block1 m c t) (block2 m c t) j (((cfg0.win 4).blk t).view.emb j) ?_ ?_ ?_
  · show win0_4.index t (0 : Fin 3) * 1 + 1 * (j 0).val = t.val; omega
  · show win0_4.index t (1 : Fin 3) * 1024 + 1 * (j 1).val = (j 1).val; omega
  · show win0_4.index t (2 : Fin 3) * 1024 + 1 * (j 2).val = (j 2).val; omega

/-! ## The blocks cover the results -/

/-- An index of the first result is in point `t`'s block iff each coordinate is in the block's range on its axis. -/
theorem mem_blk3 (t : Fin cfg0.N) (i : S16x1024x1024.Idx) :
    i ∈ ((cfg0.win 3).blk t).view.set ↔ ∀ a : Fin 3, win0_3.index t a * S1x1024x1024.size a ≤ (i a).val
      ∧ (i a).val < win0_3.index t a * S1x1024x1024.size a + S1x1024x1024.size a := by
  show i ∈ ((View.whole main_v0_0).slice (win0_3.rect t)).set ↔ _
  rw [View.set_slice_whole, Rect.mem_set_unit]
  exact Iff.rfl

theorem mem_blk4 (t : Fin cfg0.N) (i : S16x1024x1024.Idx) :
    i ∈ ((cfg0.win 4).blk t).view.set ↔ ∀ a : Fin 3, win0_4.index t a * S1x1024x1024.size a ≤ (i a).val
      ∧ (i a).val < win0_4.index t a * S1x1024x1024.size a + S1x1024x1024.size a := by
  show i ∈ ((View.whole main_v0_1).slice (win0_4.rect t)).set ↔ _
  rw [View.set_slice_whole, Rect.mem_set_unit]
  exact Iff.rfl

/-- The point working on batch entry `b`. -/
def pointOf (b : Nat) (hb : b < 16) : Fin cfg0.N := ⟨b, by rw [show cfg0.N = 16 from N_0]; exact hb⟩

/-- Index `(b, k, i)` of the first result lies in the block of point `b`. -/
theorem cover3 (i : S16x1024x1024.Idx) : ∃ t : Fin cfg0.N, (cfg0.win 3).flush t = true ∧ i ∈ ((cfg0.win 3).blk t).view.set := by
  have h0 : (i 0).val < 16 := (i 0).isLt
  have h1 : (i 1).val < 1024 := (i 1).isLt
  have h2 : (i 2).val < 1024 := (i 2).isLt
  obtain ⟨-, -, -, -, -, -, -, -, e0, e1, e2, -⟩ := index_facts (pointOf (i 0).val h0)
  have ht : (pointOf (i 0).val h0).val = (i 0).val := rfl
  refine ⟨pointOf (i 0).val h0, flush0_3 _, ?_⟩
  rw [mem_blk3]
  intro a
  match a with
  | ⟨0, _⟩ =>
    show win0_3.index (pointOf (i 0).val h0) (0 : Fin 3) * 1 ≤ (i 0).val ∧ (i 0).val < win0_3.index (pointOf (i 0).val h0) (0 : Fin 3) * 1 + 1
    omega
  | ⟨1, _⟩ =>
    show win0_3.index (pointOf (i 0).val h0) (1 : Fin 3) * 1024 ≤ (i 1).val ∧ (i 1).val < win0_3.index (pointOf (i 0).val h0) (1 : Fin 3) * 1024 + 1024
    omega
  | ⟨2, _⟩ =>
    show win0_3.index (pointOf (i 0).val h0) (2 : Fin 3) * 1024 ≤ (i 2).val ∧ (i 2).val < win0_3.index (pointOf (i 0).val h0) (2 : Fin 3) * 1024 + 1024
    omega

theorem cover4 (i : S16x1024x1024.Idx) : ∃ t : Fin cfg0.N, (cfg0.win 4).flush t = true ∧ i ∈ ((cfg0.win 4).blk t).view.set := by
  have h0 : (i 0).val < 16 := (i 0).isLt
  have h1 : (i 1).val < 1024 := (i 1).isLt
  have h2 : (i 2).val < 1024 := (i 2).isLt
  obtain ⟨-, -, -, -, -, -, -, -, -, -, -, e0, e1, e2⟩ := index_facts (pointOf (i 0).val h0)
  have ht : (pointOf (i 0).val h0).val = (i 0).val := rfl
  refine ⟨pointOf (i 0).val h0, flush0_4 _, ?_⟩
  rw [mem_blk4]
  intro a
  match a with
  | ⟨0, _⟩ =>
    show win0_4.index (pointOf (i 0).val h0) (0 : Fin 3) * 1 ≤ (i 0).val ∧ (i 0).val < win0_4.index (pointOf (i 0).val h0) (0 : Fin 3) * 1 + 1
    omega
  | ⟨1, _⟩ =>
    show win0_4.index (pointOf (i 0).val h0) (1 : Fin 3) * 1024 ≤ (i 1).val ∧ (i 1).val < win0_4.index (pointOf (i 0).val h0) (1 : Fin 3) * 1024 + 1024
    omega
  | ⟨2, _⟩ =>
    show win0_4.index (pointOf (i 0).val h0) (2 : Fin 3) * 1024 ≤ (i 2).val ∧ (i 2).val < win0_4.index (pointOf (i 0).val h0) (2 : Fin 3) * 1024 + 1024
    omega

/-! ## The arrays after the run -/

/-- THE FIRST RESULT after the run. -/
theorem final3 (c : Dev nD) :
    (dats m 0 c).arrAt 3 cfg0.N = out1 (scores3 (stack0 m c) (stack1 m c) (weights m c)) (stack0 m c) :=
  (dats m 0 c).arrAt_eq_of_cover 3 _ (fun t _ => flushed3_eq m c t) cover3

/-- THE SECOND RESULT after the run. -/
theorem final4 (c : Dev nD) :
    (dats m 0 c).arrAt 4 cfg0.N = out2 (scores3 (stack0 m c) (stack1 m c) (weights m c)) (stack1 m c) :=
  (dats m 0 c).arrAt_eq_of_cover 4 _ (fun t _ => flushed4_eq m c t) cover4

/-- The kernel's run, read: both result arrays at their functions of the arguments, the arguments unchanged. -/
theorem run : θ_run defs (onTc (τ := τ) (main (F := Ideal))) ⟨m, fun _ => 0, ρ⟩ fun r => ∀ c : Dev nD,
      r.2.mem ((c : Thread nD τ).loc main_v0_0) = out1 (scores3 (stack0 m c) (stack1 m c) (weights m c)) (stack0 m c)
      ∧ r.2.mem ((c : Thread nD τ).loc main_v0_1) = out2 (scores3 (stack0 m c) (stack1 m c) (weights m c)) (stack1 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2.1.trans (final4 m c), (h c).2.2⟩)
    (Value.run_blocks m ρ)

end Cert.KernelIdeal.Whole

end
-- ==== Proof.RefValue.lean ====
/-
  The reference, read on the extended reals: both of its results as functions of its arguments.

  The reference forms `cc = (f1 · w) · f2ᵀ` for every batch entry with two plain products, takes the softmax of
  `cc` over its first matrix axis, and the softmax of the transposed `cc` over ITS first matrix axis (so: over the
  second axis of `cc`), multiplies `f1` resp. `f2` by them from the left, and swaps the two matrix axes of each
  product. Each maximum is computed as a fold from the value of the word of minus infinity and then once more
  compared with that value, which changes nothing; each sum starts from zero.

  Read index by index, the first result at `(b, k, i)` is `Σ_p f1[b, i, p] · colSoft(cc_b)[p, k]` and the second at
  `(b, s, i)` is `Σ_t f2[b, i, t] · rowSoft(cc_b)[s, t]`: the two outputs of `DualSoftmax` over plain scores, up to
  the order of the two factors in each term.
-/
import proofs.«130357_j41377714929724_2_alg».proof.Proof.Gen.ReferenceIdeal.Read
import proofs.«130357_j41377714929724_2_alg».proof.Proof.DualSoftmax

noncomputable section

open scoped BigOperators

namespace Cert.ReferenceIdeal.RefValue

open Cert.ReferenceIdeal Cert.ReferenceIdeal.Gen Cert.ReferenceIdeal.Read Idealize.ShloMosaic Idealize.ShloMosaic.ValueIdx
  Cert.DualSoftmax

variable (x0 x1 : FVec Ideal S16x1024x1024 .f32) (x2 : FVec Ideal S1024x1024 .f32)

/-- Two indices of a rank-3 shape with equal coordinates are equal. -/
local macro "idx3" : tactic =>
  `(tactic| (funext a; apply Fin.ext; match a with | ⟨0, _⟩ => rfl | ⟨1, _⟩ => rfl | ⟨2, _⟩ => rfl))
local macro "idx2" : tactic =>
  `(tactic| (funext a; apply Fin.ext; match a with | ⟨0, _⟩ => rfl | ⟨1, _⟩ => rfl))

/-- The axis the two maxima and the two sums run over, as the library's reduction fact. -/
theorem reduces_mid : S16x1024x1024.Reduces [1] S16x1024 := by decide

/-- The index the reduction over the middle axis reads: `(b, k, t)` for the result index `(b, t)`. -/
theorem lift_mid (b : Fin 16) (t k : Fin 1024) : reduces_mid.lift (ix2 b t) k = ix3 b k t := by idx3

/-- A maximum over the middle axis of a stack, from a starting array whose one entry is `start`: at `(b, t)` the fold
    of `max` from `start` over the entries `(b, k, t)`. -/
theorem mid_max (y : FVec Ideal S16x1024x1024 .f32) (init : FVec Ideal S_ .f32) (hinit : init (Shape.Idx.first h_S_) = start)
    (b : Fin 16) (t : Fin 1024) :
    Host.reduce (FloatOps.maximumf (F := Ideal) (φ := .f32)) y init reducesTo_S16x1024x1024_S16x1024_d1 h_S_ (ix2 b t)
      = (Finset.univ : Finset (Fin 1024)).fold max start fun k => y (ix3 b k t) := by
  rw [Host.reduce_eq_fold_single (FloatOps.maximumf (F := Ideal) (φ := .f32)) y init reducesTo_S16x1024x1024_S16x1024_d1 reduces_mid h_S_,
    hinit]
  have hf : (y ∘ reduces_mid.lift (ix2 b t)) = fun k : Fin 1024 => y (ix3 b k t) :=
    funext fun k => congrArg y (lift_mid b t k)
  rw [hf]
  rfl

/-! ## The scores -/

theorem v0_at (b : Fin 16) (p e : Fin 1024) : val_main_v0 (F := Ideal) x0 x2 (ix3 b p e) = prod (slab x0 b) (mat x2) p e := by
  rw [val_main_v0_apply]
  show _ = ∑ d : Fin 1024, slab x0 b p d * mat x2 d e
  refine Finset.sum_congr rfl fun k _ => ?_
  rw [show lidx_main_v0 (ix3 b p e) k = ix3 b p k by idx3, show ridx_main_v0 (ix3 b p e) k = ix2 k e by idx2]
  rfl

theorem v1_at (b : Fin 16) (s t : Fin 1024) : val_main_v1 (F := Ideal) x0 x1 x2 (ix3 b s t) = scores x0 x1 x2 b s t := by
  rw [val_main_v1_apply]
  show _ = ∑ e : Fin 1024, prod (slab x0 b) (mat x2) s e * slab x1 b t e
  refine Finset.sum_congr rfl fun k _ => ?_
  rw [show lidx_main_v1 (ix3 b s t) k = ix3 b s k by idx3, show ridx_main_v1 (ix3 b s t) k = ix3 b t k by idx3, v0_at]
  rfl

/-! ## The softmax down the columns of the scores -/

theorem v2_at (b : Fin 16) (t : Fin 1024) : val_main_v2 (F := Ideal) x0 x1 x2 (ix2 b t) = colMax start (scores x0 x1 x2 b) t := by
  unfold val_main_v2
  rw [mid_max _ _ rfl b t]
  exact congrArg (fun f => Finset.fold max start f (Finset.univ : Finset (Fin 1024))) (funext fun k => v1_at x0 x1 x2 b k t)

theorem v4_at (b : Fin 16) (t : Fin 1024) : val_main_v4 (F := Ideal) x0 x1 x2 (ix2 b t) = colMax start (scores x0 x1 x2 b) t := by
  rw [val_main_v4_apply, v2_at]
  exact max_fold_self _ _ _

theorem v6_at (b : Fin 16) (s t : Fin 1024) : val_main_v6 (F := Ideal) x0 x1 x2 (ix3 b s t) = colMax start (scores x0 x1 x2 b) t := by
  rw [val_main_v6_apply, val_main_v5_apply, show idx_main_v5 (idx_main_v6 (ix3 b s t)) = ix2 b t by idx2, v4_at]

theorem v8_at (b : Fin 16) (s t : Fin 1024) :
    val_main_v8 (F := Ideal) x0 x1 x2 (ix3 b s t) = Ideal.exp (scores x0 x1 x2 b s t - colMax start (scores x0 x1 x2 b) t) := by
  rw [val_main_v8_apply, val_main_v7_apply, v1_at, v6_at]
  rfl

theorem v9_at (b : Fin 16) (t : Fin 1024) :
    val_main_v9 (F := Ideal) x0 x1 x2 (ix2 b t) = ∑ p : Fin 1024, Ideal.exp (scores x0 x1 x2 b p t - colMax start (scores x0 x1 x2 b) t) := by
  rw [val_main_v9_apply, val_main_cst_1_apply]
  show Ideal.ofBits .f32 0x00000000#32 + _ = _
  rw [Ideal.ofBits_zero_f32, zero_add]
  refine Finset.sum_congr rfl fun k _ => ?_
  rw [show idx_main_v9 (ix2 b t) k = ix3 b k t by idx3, v8_at]

theorem v11_at (b : Fin 16) (s t : Fin 1024) :
    val_main_v11 (F := Ideal) x0 x1 x2 (ix3 b s t) = ∑ p : Fin 1024, Ideal.exp (scores x0 x1 x2 b p t - colMax start (scores x0 x1 x2 b) t) := by
  rw [val_main_v11_apply, val_main_v10_apply, show idx_main_v10 (idx_main_v11 (ix3 b s t)) = ix2 b t by idx2, v9_at]

theorem v12_at (b : Fin 16) (s t : Fin 1024) : val_main_v12 (F := Ideal) x0 x1 x2 (ix3 b s t) = colSoft start (scores x0 x1 x2 b) s t := by
  rw [val_main_v12_apply, v8_at, v11_at]
  rfl

/-! ## The softmax along the rows of the scores -/

theorem v13_at (b : Fin 16) (t s : Fin 1024) : val_main_v13 (F := Ideal) x0 x1 x2 (ix3 b t s) = scores x0 x1 x2 b s t := by
  rw [val_main_v13_apply, show idx_main_v13 (ix3 b t s) = ix3 b s t by idx3, v1_at]

theorem v14_at (b : Fin 16) (s : Fin 1024) : val_main_v14 (F := Ideal) x0 x1 x2 (ix2 b s) = rowMax start (scores x0 x1 x2 b) s := by
  unfold val_main_v14
  rw [mid_max _ _ rfl b s]
  exact congrArg (fun f => Finset.fold max start f (Finset.univ : Finset (Fin 1024))) (funext fun k => v13_at x0 x1 x2 b k s)

theorem v16_at (b : Fin 16) (s : Fin 1024) : val_main_v16 (F := Ideal) x0 x1 x2 (ix2 b s) = rowMax start (scores x0 x1 x2 b) s := by
  rw [val_main_v16_apply, v14_at]
  exact max_fold_self _ _ _

theorem v18_at (b : Fin 16) (t s : Fin 1024) : val_main_v18 (F := Ideal) x0 x1 x2 (ix3 b t s) = rowMax start (scores x0 x1 x2 b) s := by
  rw [val_main_v18_apply, val_main_v17_apply, show idx_main_v17 (idx_main_v18 (ix3 b t s)) = ix2 b s by idx2, v16_at]

theorem v20_at (b : Fin 16) (t s : Fin 1024) :
    val_main_v20 (F := Ideal) x0 x1 x2 (ix3 b t s) = Ideal.exp (scores x0 x1 x2 b s t - rowMax start (scores x0 x1 x2 b) s) := by
  rw [val_main_v20_apply, val_main_v19_apply, v13_at, v18_at]
  rfl

theorem v21_at (b : Fin 16) (s : Fin 1024) :
    val_main_v21 (F := Ideal) x0 x1 x2 (ix2 b s) = ∑ t : Fin 1024, Ideal.exp (scores x0 x1 x2 b s t - rowMax start (scores x0 x1 x2 b) s) := by
  rw [val_main_v21_apply, val_main_cst_4_apply]
  show Ideal.ofBits .f32 0x00000000#32 + _ = _
  rw [Ideal.ofBits_zero_f32, zero_add]
  refine Finset.sum_congr rfl fun k _ => ?_
  rw [show idx_main_v21 (ix2 b s) k = ix3 b k s by idx3, v20_at]

theorem v23_at (b : Fin 16) (t s : Fin 1024) :
    val_main_v23 (F := Ideal) x0 x1 x2 (ix3 b t s) = ∑ t' : Fin 1024, Ideal.exp (scores x0 x1 x2 b s t' - rowMax start (scores x0 x1 x2 b) s) := by
  rw [val_main_v23_apply, val_main_v22_apply, show idx_main_v22 (idx_main_v23 (ix3 b t s)) = ix2 b s by idx2, v21_at]

theorem v24_at (b : Fin 16) (t s : Fin 1024) : val_main_v24 (F := Ideal) x0 x1 x2 (ix3 b t s) = rowSoft start (scores x0 x1 x2 b) s t := by
  rw [val_main_v24_apply, v20_at, v23_at]
  rfl

/-! ## The two results -/

theorem v27_at (b : Fin 16) (k i : Fin 1024) :
    val_main_v27 (F := Ideal) x0 x1 x2 (ix3 b k i) = attendCols start (scores x0 x1 x2 b) (slab x0 b) k i := by
  rw [val_main_v27_apply, show idx_main_v27 (ix3 b k i) = ix3 b i k by idx3, val_main_v25_apply]
  show _ = ∑ p : Fin 1024, colSoft start (scores x0 x1 x2 b) p k * slab x0 b i p
  refine Finset.sum_congr rfl fun p _ => ?_
  rw [show lidx_main_v25 (ix3 b i k) p = ix3 b i p by idx3, show ridx_main_v25 (ix3 b i k) p = ix3 b p k by idx3, v12_at]
  exact mul_comm _ _

theorem v28_at (b : Fin 16) (s i : Fin 1024) :
    val_main_v28 (F := Ideal) x0 x1 x2 (ix3 b s i) = attendRows start (scores x0 x1 x2 b) (slab x1 b) s i := by
  rw [val_main_v28_apply, show idx_main_v28 (ix3 b s i) = ix3 b i s by idx3, val_main_v26_apply]
  show _ = ∑ t : Fin 1024, rowSoft start (scores x0 x1 x2 b) s t * slab x1 b i t
  refine Finset.sum_congr rfl fun t _ => ?_
  rw [show lidx_main_v26 (ix3 b i s) t = ix3 b i t by idx3, show ridx_main_v26 (ix3 b i s) t = ix3 b t s by idx3, v24_at]
  exact mul_comm _ _

/-- THE FIRST RESULT of the reference is `out1` over the plain scores. -/
theorem result1 : val_main_v27 (F := Ideal) x0 x1 x2 = out1 (scores x0 x1 x2) x0 := by
  funext j
  obtain ⟨b, k, i, rfl⟩ : ∃ (b : Fin 16) (k i : Fin 1024), j = ix3 b k i := ⟨j 0, j 1, j 2, eq_ix3 j⟩
  exact v27_at x0 x1 x2 b k i

/-- THE SECOND RESULT of the reference is `out2` over the plain scores. -/
theorem result2 : val_main_v28 (F := Ideal) x0 x1 x2 = out2 (scores x0 x1 x2) x1 := by
  funext j
  obtain ⟨b, s, i, rfl⟩ : ∃ (b : Fin 16) (s i : Fin 1024), j = ix3 b s i := ⟨j 0, j 1, j 2, eq_ix3 j⟩
  exact v28_at x0 x1 x2 b s i

end Cert.ReferenceIdeal.RefValue

end
-- ==== Proof.LibFiniteAll.lean ====
/-
  A printed "every entry is finite" test, read back on the extended reals.

  The test `all(|x| < +inf)` prints as: the absolute value of every entry, compared (ordered, less-than) with the
  broadcast of the single-precision word of plus infinity, and the resulting array of truth values reduced by `and`
  into a result that has one index. On the extended reals the absolute value is `max x (-x)` and the word
  0x7F800000 (sign 0, exponent field all ones, mantissa 0) denotes plus infinity. So an entry passes the comparison
  exactly when it is neither plus nor minus infinity, that is, when it is a real number; and a reduction by `and`
  that came out 1 met a 1 at every entry.
-/
import Idealize.ShloMosaic.PureOps.Ideal
import Idealize.ShloMosaic.Lib.ReduceAll

namespace Cert.FiniteAll

open Idealize.ShloMosaic

/-- The single-precision word with sign 0, exponent field all ones and mantissa 0 denotes plus infinity. -/
theorem ofBits_inf_f32 : Ideal.ofBits .f32 0x7F800000#32 = (⊤ : EReal) := by
  simp [Ideal.ofBits, Ideal.ieee]

/-- An extended real whose absolute value `max x (-x)` lies below plus infinity is a real number: plus infinity
    is its own absolute value, and the negative of minus infinity is plus infinity. -/
theorem exists_real_of_abs_lt_top {x : EReal} (h : max x (-x) < ⊤) : ∃ r : ℝ, x = (r : EReal) := by
  induction x using EReal.rec with
  | bot => simp at h
  | coe r => exact ⟨r, rfl⟩
  | top => simp at h

/-- One entry: if the ordered comparison `|x| < +inf` answers 1, then `x` is a real number. -/
theorem exists_real_of_cmp (x : Ideal .f32)
    (h : FloatOps.cmpf .olt (FloatOps.hostAbsf x) (FloatOps.ofBits (F := Ideal) .f32 0x7F800000#32) = 1#1) :
    ∃ r : ℝ, (x : EReal) = (r : EReal) := by
  have h' : Ideal.cmp .olt (max (x : EReal) (-(x : EReal))) (Ideal.ofBits .f32 0x7F800000#32) = 1#1 := h
  rw [ofBits_inf_f32] at h'
  unfold Ideal.cmp at h'
  by_cases hlt : max (x : EReal) (-(x : EReal)) < ⊤
  · exact exists_real_of_abs_lt_top hlt
  · simp [hlt] at h'

/-- THE ARRAY FACT: if `|x| < +inf`, taken entry by entry against the broadcast word of plus infinity and reduced
    by `and` into a result with one index, is 1, then every entry of `x` is a real number. The shape of `x`, the
    reduced axes, the shape the constant is broadcast from and the reduction's starting value are arbitrary. -/
theorem all_real_of_reduce_and {s t u z : Shape} {axes : List (Fin s.rank)} [Subsingleton t.Idx]
    (x : FVec Ideal s .f32) (dims : Fin z.rank → Fin s.rank) (hb : z.BroadcastsInDim s dims)
    (init : u.Idx → BitVec 1) (hr : s.ReducesTo axes t) (hu : 0 < u.numel) (j : t.Idx)
    (e : Host.reduce IntOp.andi
          (cmpf .olt (Host.absf x) (broadcastInDim s dims hb (constant (F := Ideal) z .f32 0x7F800000#32)))
          init hr hu j = 1#1)
    (i : s.Idx) : ∃ r : ℝ, (x i : EReal) = (r : EReal) :=
  exists_real_of_cmp (x i) (Host.reduce_andi_all _ init hr hu j e i)

end Cert.FiniteAll
-- ==== Proof.FiniteInputs.lean ====
/-
  The precondition, decoded: under `finite_inputs` every entry of the three argument arrays is a real number.

  The predicate is the conjunction (by `and` of one-bit words) of three tests, one per array: the absolute value of
  every entry compared with plus infinity, and the truth values reduced by `and` over all axes into a result with
  one index. That the predicate answers 1 gives each of the three reductions answering 1, and each of those gives
  every entry of its array below plus infinity in absolute value, so neither infinity: a real number.
-/
import proofs.«130357_j41377714929724_2_alg».proof.Pre_finite_inputs
import proofs.«130357_j41377714929724_2_alg».proof.Proof.LibFiniteAll
import proofs.«130357_j41377714929724_2_alg».proof.Proof.LibRealSum
import Idealize.ShloMosaic.Lib.ReduceAll
import Idealize.ShloMosaic.Lib.ValueIdx

noncomputable section

namespace Cert.Pre_finite_inputs.Decode

open Idealize.ShloMosaic Cert.Pre_finite_inputs Cert.RealSum

/-- A shape of rank zero has one index. -/
instance : Subsingleton S_.Idx := ⟨fun a b => funext fun d => d.elim0⟩

/-- If the predicate answers 1 on three arrays, all their entries are real numbers. -/
theorem all_real [Facts] (a0 a1 : FVec Ideal S16x1024x1024 .f32) (a2 : FVec Ideal S1024x1024 .f32)
    (h : fn (F := Ideal) a0 a1 a2 = fun _ => 1#1) :
    (∀ i, IsReal (a0 i)) ∧ (∀ i, IsReal (a1 i)) ∧ (∀ i, IsReal (a2 i)) := by
  have h' := congrFun h ValueIdx.ix0
  dsimp only [fn] at h'
  obtain ⟨h01, h2⟩ := IntOp.andi_eq_one.1 h'
  obtain ⟨h0, h1⟩ := IntOp.andi_eq_one.1 h01
  exact ⟨fun i => Cert.FiniteAll.all_real_of_reduce_and a0 _ _ _ _ _ _ h0 i,
    fun i => Cert.FiniteAll.all_real_of_reduce_and a1 _ _ _ _ _ _ h1 i,
    fun i => Cert.FiniteAll.all_real_of_reduce_and a2 _ _ _ _ _ _ h2 i⟩

end Cert.Pre_finite_inputs.Decode

end
-- ==== Proof.lean ====
/-
  The kernel against its reference, on the extended reals.

  Both programs take two stacks `f1`, `f2` of 16 matrices (1024 × 1024) and one weight matrix `w`, form for each batch
  entry the scores `cc = (f1 · w) · f2ᵀ`, and return `out1[k, i] = Σ_p colSoft(cc)[p, k] · f1[i, p]` and
  `out2[s, i] = Σ_t rowSoft(cc)[s, t] · f2[i, t]`, the softmax of `cc` taken down its columns resp. along its rows.

  The kernel works one batch entry per grid point and forms each of the two products of `cc` as a sum of three, splitting
  every operand into itself and the difference `x − x`; the reference uses two plain products, and writes the two outputs
  as products with the softmaxes on the right followed by a swap of the matrix axes. Everything else — maxima as folds from
  the value of the word of minus infinity, exponentials of differences, sums, quotients — is the same arithmetic on both
  sides, so the two results are the same functions `out1`, `out2` of the scores, and what remains is that the three-term
  scores are the plain ones. That holds when every input is a real number (`x − x = 0` fails at the infinities), which is
  exactly what the precondition says: this is the one place it is used.

  Modules: `DualSoftmax` (the functions and the law), `KernelBlock` (one grid point), `KernelArray` (the whole result
  arrays after the kernel's run), `RefValue` (the reference's two results), `FiniteInputs` (the precondition decoded),
  over general lemma files `Lib*` (products, reductions and layouts read at an index; real numbers in the extended reals).
-/
import proofs.«130357_j41377714929724_2_alg».proof.Defs
import proofs.«130357_j41377714929724_2_alg».proof.Proof.Gen.Kernel
import proofs.«130357_j41377714929724_2_alg».proof.Proof.Gen.Kernel.Skeleton
import proofs.«130357_j41377714929724_2_alg».proof.Proof.Gen.Kernel.Launch
import proofs.«130357_j41377714929724_2_alg».proof.Proof.Gen.Kernel.Points
import proofs.«130357_j41377714929724_2_alg».proof.Proof.Gen.Kernel.Frame
import proofs.«130357_j41377714929724_2_alg».proof.Proof.Gen.KernelIdeal
import proofs.«130357_j41377714929724_2_alg».proof.Proof.Gen.KernelIdeal.Skeleton
import proofs.«130357_j41377714929724_2_alg».proof.Proof.Gen.KernelIdeal.Launch
import proofs.«130357_j41377714929724_2_alg».proof.Proof.Gen.KernelIdeal.Points
import proofs.«130357_j41377714929724_2_alg».proof.Proof.Gen.KernelIdeal.Frame
import proofs.«130357_j41377714929724_2_alg».proof.Proof.Gen.ReferenceIdeal
import proofs.«130357_j41377714929724_2_alg».proof.Proof.Gen.Pre_finite_inputs
import proofs.«130357_j41377714929724_2_alg».proof.Proof.Gen.KernelIdeal.Value
import proofs.«130357_j41377714929724_2_alg».proof.Proof.Gen.ReferenceIdeal.Run
import proofs.«130357_j41377714929724_2_alg».proof.Proof.Gen.ReferenceIdeal.Read
import proofs.«130357_j41377714929724_2_alg».proof.Proof.KernelArray
import proofs.«130357_j41377714929724_2_alg».proof.Proof.RefValue
import proofs.«130357_j41377714929724_2_alg».proof.Proof.FiniteInputs
import Idealize.ShloMosaic.Adequacy
import Idealize.ShloMosaic.Init

noncomputable section

namespace Cert.Proof

open Idealize.ShloMosaic Idealize.SL.Sem Cert.DualSoftmax Cert.KernelIdeal.Whole

/-- The kernel as printed runs and leaves its arguments unchanged. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and leaves its arguments unchanged: its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The four places where the idealization dropped a conversion to the 16-bit format and back: on the extended reals
    that conversion is the identity, on words it is the rounding. -/
theorem preserves : Cert.preserves_Kernel_KernelIdeal :=
  ⟨IdealRules.truncf_extf.statement _ _ _, IdealRules.truncf_extf.statement _ _ _,
    IdealRules.truncf_extf.statement _ _ _, IdealRules.truncf_extf.statement _ _ _⟩

/-- From memories agreeing on the arguments, both programs end with `out1` and `out2` of the scores of the argument
    arrays: the kernel over the three-term scores, the reference over the plain ones, equal because the inputs are real. -/
theorem algebraic : Cert.algebraic_KernelIdeal_ReferenceIdeal := by
  intro m ρ m' ρ' hpre hagree
  refine ⟨fun c => out1 (scores3 (stack0 m c) (stack1 m c) (weights m c)) (stack0 m c),
    fun c => out2 (scores3 (stack0 m c) (stack1 m c) (weights m c)) (stack1 m c),
    Cert.KernelIdeal.Whole.run m ρ, ?_⟩
  refine (θ_run Cert.ReferenceIdeal.defs _ _).mono (fun _ h c => ?_) (Cert.ReferenceIdeal.Value.run (F := Ideal) m' ρ')
  obtain ⟨r0, r1, r2⟩ := Cert.Pre_finite_inputs.Decode.all_real _ _ _ (hpre c)
  have hs := scores3_eq (stack0 m c) (stack1 m c) (weights m c) r0 r1 r2
  refine ⟨(h c).1.trans ?_, (h c).2.1.trans ?_, (h c).2.2⟩
  · rw [Cert.ReferenceIdeal.Read.val_main_v27_eq, Cert.ReferenceIdeal.RefValue.result1, (hagree c).1, (hagree c).2.1,
      (hagree c).2.2]
    exact (congrArg (fun s => out1 s (stack0 m c)) hs).symm
  · rw [Cert.ReferenceIdeal.Read.val_main_v28_eq, Cert.ReferenceIdeal.RefValue.result2, (hagree c).1, (hagree c).2.1,
      (hagree c).2.2]
    exact (congrArg (fun s => out2 s (stack1 m c)) hs).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
